-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000x2 : Shape := ⟨2, ![320000, 2]⟩
abbrev S256x256 : Shape := ⟨2, ![256, 256]⟩
abbrev S256 : Shape := ⟨1, ![256]⟩
abbrev S512x1 : Shape := ⟨2, ![512, 1]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S10000x256 .f32) (main_arg1 : IVec S320000x2 32) (main_arg2 : FVec F S256x256 .f32) (main_arg3 : FVec F S256 .f32) (main_arg4 : FVec F S512x1 .f32) (main_arg5 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x1 .f32 := Host.absf main_arg4
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg5 main_v13 main_v16
-- ==== Kernel.lean ====
abbrev S10000x256 : Shape := ⟨2, ![10000, 256]⟩
abbrev S320000x2 : Shape := ⟨2, ![320000, 2]⟩
abbrev S256x256 : Shape := ⟨2, ![256, 256]⟩
abbrev S256 : Shape := ⟨1, ![256]⟩
abbrev S512x1 : Shape := ⟨2, ![512, 1]⟩
abbrev S1 : Shape := ⟨1, ![1]⟩
abbrev S1x256 : Shape := ⟨2, ![1, 256]⟩
abbrev S1000x256 : Shape := ⟨2, ![1000, 256]⟩
abbrev S256x1 : Shape := ⟨2, ![256, 1]⟩
abbrev S10000x1 : Shape := ⟨2, ![10000, 1]⟩
abbrev S320000x1 : Shape := ⟨2, ![320000, 1]⟩
abbrev S320000 : Shape := ⟨1, ![320000]⟩
abbrev S_ : Shape := ⟨0, ![]⟩
abbrev S10000 : Shape := ⟨1, ![10000]⟩
abbrev S10000x10000 : Shape := ⟨2, ![10000, 10000]⟩
abbrev S400x10000 : Shape := ⟨2, ![400, 10000]⟩
abbrev S400x256 : Shape := ⟨2, ![400, 256]⟩

abbrev nBuf : Space → Nat
  | .hbm => 94
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S320000x2, .i32⟩
  | .hbm, ⟨2, _⟩ => ⟨S256x256, .f32⟩
  | .hbm, ⟨3, _⟩ => ⟨S256, .f32⟩
  | .hbm, ⟨4, _⟩ => ⟨S512x1, .f32⟩
  | .hbm, ⟨5, _⟩ => ⟨S1, .f32⟩
  | .hbm, ⟨6, _⟩ => ⟨S1x256, .f32⟩
  | .hbm, ⟨7, _⟩ => ⟨S10000x256, .f32⟩
  | .hbm, ⟨8, _⟩ => ⟨S256x1, .f32⟩
  | .hbm, ⟨9, _⟩ => ⟨S256x1, .f32⟩
  | .hbm, ⟨10, _⟩ => ⟨S10000x1, .f32⟩
  | .hbm, ⟨11, _⟩ => ⟨S10000x1, .f32⟩
  | .hbm, ⟨12, _⟩ => ⟨S320000x1, .i32⟩
  | .hbm, ⟨13, _⟩ => ⟨S320000, .i32⟩
  | .hbm, ⟨14, _⟩ => ⟨S320000x1, .i32⟩
  | .hbm, ⟨15, _⟩ => ⟨S320000, .i32⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S320000x1, .i32⟩
  | .hbm, ⟨28, _⟩ => ⟨S320000x2, .i32⟩
  | .hbm, ⟨29, _⟩ => ⟨S320000, .f32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000x1, .i32⟩
  | .hbm, ⟨42, _⟩ => ⟨S320000x2, .i32⟩
  | .hbm, ⟨43, _⟩ => ⟨S320000, .f32⟩
  | .hbm, ⟨44, _⟩ => ⟨S320000, .f32⟩
  | .hbm, ⟨45, _⟩ => ⟨S_, .f32⟩
  | .hbm, ⟨46, _⟩ => ⟨S320000, .f32⟩
  | .hbm, ⟨47, _⟩ => ⟨S320000, .f32⟩
  | .hbm, ⟨48, _⟩ => ⟨S_, .f32⟩
  | .hbm, ⟨49, _⟩ => ⟨S_, .f32⟩
  | .hbm, ⟨50, _⟩ => ⟨S320000, .f32⟩
  | .hbm, ⟨51, _⟩ => ⟨S320000, .i1⟩
  | .hbm, ⟨52, _⟩ => ⟨S_, .f32⟩
  | .hbm, ⟨53, _⟩ => ⟨S320000, .f32⟩
  | .hbm, ⟨54, _⟩ => ⟨S320000, .f32⟩
  | .hbm, ⟨55, _⟩ => ⟨S320000, .f32⟩
  | .hbm, ⟨56, _⟩ => ⟨S320000, .f32⟩
  | .hbm, ⟨57, _⟩ => ⟨S_, .f32⟩
  | .hbm, ⟨58, _⟩ => ⟨S10000, .f32⟩
  | .hbm, ⟨59, _⟩ => ⟨S320000x1, .i32⟩
  | .hbm, ⟨60, _⟩ => ⟨S10000, .f32⟩
  | .hbm, ⟨61, _⟩ => ⟨S_, .i32⟩
  | .hbm, ⟨62, _⟩ => ⟨S320000, .i32⟩
  | .hbm, ⟨63, _⟩ => ⟨S320000, .i1⟩
  | .hbm, ⟨64, _⟩ => ⟨S_, .i32⟩
  | .hbm, ⟨65, _⟩ => ⟨S320000, .i32⟩
  | .hbm, ⟨66, _⟩ => ⟨S320000, .i32⟩
  | .hbm, ⟨67, _⟩ => ⟨S320000, .i32⟩
  | .hbm, ⟨68, _⟩ => ⟨S320000x1, .i32⟩
  | .hbm, ⟨69, _⟩ => ⟨S320000, .f32⟩
  | .hbm, ⟨70, _⟩ => ⟨S320000, .f32⟩
  | .hbm, ⟨71, _⟩ => ⟨S_, .f32⟩
  | .hbm, ⟨72, _⟩ => ⟨S10000x10000, .f32⟩
  | .hbm, ⟨73, _⟩ => ⟨S_, .i32⟩
  | .hbm, ⟨74, _⟩ => ⟨S320000, .i32⟩
  | .hbm, ⟨75, _⟩ => ⟨S320000, .i1⟩
  | .hbm, ⟨76, _⟩ => ⟨S_, .i32⟩
  | .hbm, ⟨77, _⟩ => ⟨S320000, .i32⟩
  | .hbm, ⟨78, _⟩ => ⟨S320000, .i32⟩
  | .hbm, ⟨79, _⟩ => ⟨S320000, .i32⟩
  | .hbm, ⟨80, _⟩ => ⟨S_, .i32⟩
  | .hbm, ⟨81, _⟩ => ⟨S320000, .i32⟩
  | .hbm, ⟨82, _⟩ => ⟨S320000, .i1⟩
  | .hbm, ⟨83, _⟩ => ⟨S_, .i32⟩
  | .hbm, ⟨84, _⟩ => ⟨S320000, .i32⟩
  | .hbm, ⟨85, _⟩ => ⟨S320000, .i32⟩
  | .hbm, ⟨86, _⟩ => ⟨S320000, .i32⟩
  | .hbm, ⟨87, _⟩ => ⟨S320000x1, .i32⟩
  | .hbm, ⟨88, _⟩ => ⟨S320000x1, .i32⟩
  | .hbm, ⟨89, _⟩ => ⟨S320000x2, .i32⟩
  | .hbm, ⟨90, _⟩ => ⟨S10000x10000, .f32⟩
  | .hbm, ⟨91, _⟩ => ⟨S10000x10000, .bf16⟩
  | .hbm, ⟨92, _⟩ => ⟨S10000x256, .bf16⟩
  | .hbm, ⟨93, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S400x10000, .bf16⟩
  | .local _ .vmem, ⟨7, _⟩ => ⟨S400x10000, .bf16⟩
  | .local _ .vmem, ⟨8, _⟩ => ⟨S10000x256, .bf16⟩
  | .local _ .vmem, ⟨9, _⟩ => ⟨S400x256, .f32⟩
  | .local _ .vmem, ⟨10, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  slices_S512x1_S256x1_0_0 : S512x1.Slices ![0, 0] S256x1
  slices_S512x1_S256x1_256_0 : S512x1.Slices ![256, 0] S256x1
  slices_S320000x2_S320000x1_0_0 : S320000x2.Slices ![0, 0] S320000x1
  shapeCasts_S320000x1_S320000 : S320000x1.ShapeCasts S320000
  slices_S320000x2_S320000x1_0_1 : S320000x2.Slices ![0, 1] S320000x1
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  shapeCasts_S1_S_ : S1.ShapeCasts S_
  bcast_S_S10000 : S_.BroadcastsInDim S10000 (![] : Fin 0 → Fin S10000.rank)
  bcast_S_S10000x10000 : S_.BroadcastsInDim S10000x10000 (![] : Fin 0 → Fin S10000x10000.rank)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S400x256_S400x256_0_0 : ∀ a, (![0, 0] : Fin 2 → Nat) a + S400x256.size a ≤ S400x256.size a
  h_S400x256 : 0 < S400x256.numel
  dot_S1000x256_S256x256_S1000x256_1_0_0_1_n_n_wf : DotDims.WF S1000x256 S256x256 S1000x256 [1] [0] [0] [1] [] []
  dot_S10000x256_S256x1_S10000x1_1_0_0_1_n_n_wf : DotDims.WF S10000x256 S256x1 S10000x1 [1] [0] [0] [1] [] []
  gather_S10000x1_S320000x2_S320000_n_01_n_n_01_1_11_wf : GatherDims.WF S10000x1 S320000x2 S320000 [] [0, 1] [] [0, 1] [] 1 ![1, 1]
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  scatter_S10000x10000_S320000x2_S320000_n_01_01_1_wf : ScatterDims.WF S10000x10000 S320000x2 S320000 [] [0, 1] [0, 1] 1
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S10000x256.size a
  hwx1_2 : ∀ i : grid1.Coords, EltTy.bits .f32 = 32 ∨ (Rect.block (s := S10000x256) S400x256.size (cc1_transform_2 i) (hinb1_2 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf
def gather_S10000x1_S320000x2_S320000_n_01_n_n_01_1_11 : GatherDims S10000x1 S320000x2 S320000 where
  offsetDims := []
  collapsedSliceDims := [0, 1]
  operandBatchingDims := []
  startIndicesBatchingDims := []
  startIndexMap := [0, 1]
  indexVectorDim := 1
  sliceSizes := ![1, 1]
  wf := gather_S10000x1_S320000x2_S320000_n_01_n_n_01_1_11_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v64) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S400x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x256 : Shape := ⟨2, ![10000, 256]⟩
abbrev S320000x2 : Shape := ⟨2, ![320000, 2]⟩
abbrev S256x256 : Shape := ⟨2, ![256, 256]⟩
abbrev S256 : Shape := ⟨1, ![256]⟩
abbrev S512x1 : Shape := ⟨2, ![512, 1]⟩
abbrev S1 : Shape := ⟨1, ![1]⟩
abbrev S1x256 : Shape := ⟨2, ![1, 256]⟩
abbrev S320000x1 : Shape := ⟨2, ![320000, 1]⟩
abbrev S320000 : Shape := ⟨1, ![320000]⟩
abbrev S_ : Shape := ⟨0, ![]⟩
abbrev S320000x256 : Shape := ⟨2, ![320000, 256]⟩
abbrev S320000x512 : Shape := ⟨2, ![320000, 512]⟩
abbrev S1x1 : Shape := ⟨2, ![1, 1]⟩
abbrev S10000 : Shape := ⟨1, ![10000]⟩
abbrev S10000x10000 : Shape := ⟨2, ![10000, 10000]⟩

abbrev nBuf : Space → Nat
  | .hbm => 82
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000x2, .i32⟩
  | .hbm, ⟨2, _⟩ => ⟨S256x256, .f32⟩
  | .hbm, ⟨3, _⟩ => ⟨S256, .f32⟩
  | .hbm, ⟨4, _⟩ => ⟨S512x1, .f32⟩
  | .hbm, ⟨5, _⟩ => ⟨S1, .f32⟩
  | .hbm, ⟨6, _⟩ => ⟨S10000x256, .f32⟩
  | .hbm, ⟨7, _⟩ => ⟨S1x256, .f32⟩
  | .hbm, ⟨8, _⟩ => ⟨S10000x256, .f32⟩
  | .hbm, ⟨9, _⟩ => ⟨S10000x256, .f32⟩
  | .hbm, ⟨10, _⟩ => ⟨S320000x1, .i32⟩
  | .hbm, ⟨11, _⟩ => ⟨S320000, .i32⟩
  | .hbm, ⟨12, _⟩ => ⟨S320000x1, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x256, .f32⟩
  | .hbm, ⟨23, _⟩ => ⟨S_, .i32⟩
  | .hbm, ⟨24, _⟩ => ⟨S320000, .i32⟩
  | .hbm, ⟨25, _⟩ => ⟨S320000, .i1⟩
  | .hbm, ⟨26, _⟩ => ⟨S_, .i32⟩
  | .hbm, ⟨27, _⟩ => ⟨S320000, .i32⟩
  | .hbm, ⟨28, _⟩ => ⟨S320000, .i32⟩
  | .hbm, ⟨29, _⟩ => ⟨S320000, .i32⟩
  | .hbm, ⟨30, _⟩ => ⟨S320000x1, .i32⟩
  | .hbm, ⟨31, _⟩ => ⟨S320000x256, .f32⟩
  | .hbm, ⟨32, _⟩ => ⟨S320000x512, .f32⟩
  | .hbm, ⟨33, _⟩ => ⟨S320000x1, .f32⟩
  | .hbm, ⟨34, _⟩ => ⟨S1x1, .f32⟩
  | .hbm, ⟨35, _⟩ => ⟨S320000x1, .f32⟩
  | .hbm, ⟨36, _⟩ => ⟨S320000x1, .f32⟩
  | .hbm, ⟨37, _⟩ => ⟨S320000, .f32⟩
  | .hbm, ⟨38, _⟩ => ⟨S_, .f32⟩
  | .hbm, ⟨39, _⟩ => ⟨S_, .f32⟩
  | .hbm, ⟨40, _⟩ => ⟨S320000, .f32⟩
  | .hbm, ⟨41, _⟩ => ⟨S320000, .i1⟩
  | .hbm, ⟨42, _⟩ => ⟨S_, .f32⟩
  | .hbm, ⟨43, _⟩ => ⟨S320000, .f32⟩
  | .hbm, ⟨44, _⟩ => ⟨S320000, .f32⟩
  | .hbm, ⟨45, _⟩ => ⟨S320000, .f32⟩
  | .hbm, ⟨46, _⟩ => ⟨S320000, .f32⟩
  | .hbm, ⟨47, _⟩ => ⟨S_, .f32⟩
  | .hbm, ⟨48, _⟩ => ⟨S10000, .f32⟩
  | .hbm, ⟨49, _⟩ => ⟨S320000x1, .i32⟩
  | .hbm, ⟨50, _⟩ => ⟨S10000, .f32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S320000, .f32⟩
  | .hbm, ⟨60, _⟩ => ⟨S320000, .f32⟩
  | .hbm, ⟨61, _⟩ => ⟨S_, .f32⟩
  | .hbm, ⟨62, _⟩ => ⟨S10000x10000, .f32⟩
  | .hbm, ⟨63, _⟩ => ⟨S_, .i32⟩
  | .hbm, ⟨64, _⟩ => ⟨S320000, .i32⟩
  | .hbm, ⟨65, _⟩ => ⟨S320000, .i1⟩
  | .hbm, ⟨66, _⟩ => ⟨S_, .i32⟩
  | .hbm, ⟨67, _⟩ => ⟨S320000, .i32⟩
  | .hbm, ⟨68, _⟩ => ⟨S320000, .i32⟩
  | .hbm, ⟨69, _⟩ => ⟨S320000, .i32⟩
  | .hbm, ⟨70, _⟩ => ⟨S_, .i32⟩
  | .hbm, ⟨71, _⟩ => ⟨S320000, .i32⟩
  | .hbm, ⟨72, _⟩ => ⟨S320000, .i1⟩
  | .hbm, ⟨73, _⟩ => ⟨S_, .i32⟩
  | .hbm, ⟨74, _⟩ => ⟨S320000, .i32⟩
  | .hbm, ⟨75, _⟩ => ⟨S320000, .i32⟩
  | .hbm, ⟨76, _⟩ => ⟨S320000, .i32⟩
  | .hbm, ⟨77, _⟩ => ⟨S320000x1, .i32⟩
  | .hbm, ⟨78, _⟩ => ⟨S320000x1, .i32⟩
  | .hbm, ⟨79, _⟩ => ⟨S320000x2, .i32⟩
  | .hbm, ⟨80, _⟩ => ⟨S10000x10000, .f32⟩
  | .hbm, ⟨81, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  slices_S320000x2_S320000x1_0_0 : S320000x2.Slices ![0, 0] S320000x1
  shapeCasts_S320000x1_S320000 : S320000x1.ShapeCasts S320000
  slices_S320000x2_S320000x1_0_1 : S320000x2.Slices ![0, 1] S320000x1
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  bcast_S_S10000 : S_.BroadcastsInDim S10000 (![] : Fin 0 → Fin S10000.rank)
  bcast_S_S10000x10000 : S_.BroadcastsInDim S10000x10000 (![] : Fin 0 → Fin S10000x10000.rank)
  concatenates_S320000x1_S320000x1_S320000x2_d1 : Shape.Concatenates [S320000x1, S320000x1] S320000x2 1
  dot_S10000x256_S256x256_S10000x256_1_0_0_1_n_n_wf : DotDims.WF S10000x256 S256x256 S10000x256 [1] [0] [0] [1] [] []
  gather_S10000x256_S320000x1_S320000x256_1_0_n_n_0_1_1256_wf : GatherDims.WF S10000x256 S320000x1 S320000x256 [1] [0] [] [0] [] 1 ![1, 256]
  dot_S320000x512_S512x1_S320000x1_1_0_0_1_n_n_wf : DotDims.WF S320000x512 S512x1 S320000x1 [1] [0] [0] [1] [] []
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  scatter_S10000x10000_S320000x2_S320000_n_01_01_1_wf : ScatterDims.WF S10000x10000 S320000x2 S320000 [] [0, 1] [0, 1] 1
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x512_S512x1_S320000x1_1_0_0_1_n_n : DotDims S320000x512 S512x1 S320000x1 where
  lhsContracting := [1]
  rhsContracting := [0]
  lhsNonContracting := [0]
  rhsNonContracting := [1]
  lhsBatch := []
  rhsBatch := []
  wf := dot_S320000x512_S512x1_S320000x1_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KernelStages.lean ====
/-
  The host stages of the kernel program between its two regions, as functions of the values they read.

  From the projected features `f`, the edge list `e` and the attention weights the program computes: the two per-node
  logit halves `f · wa[0:256]` and `f · wa[256:512]`, gathered at the wrapped source and destination columns of `e` and
  added, plus the bias (`scores`); then the leaky rectifier, the exponential, its sums per source node scattered into a
  vector and gathered back, the quotient, and the quotients scattered into the dense `10000 × 10000` attention matrix
  (`attn`).
-/
import proofs.«150314_j48284022342211_1_alg».proof.Proof.Gen.KernelIdeal

noncomputable section

namespace Cert.KernelIdeal.HostValue

open Cert.KernelIdeal Cert.KernelIdeal.Gen
open Idealize.ShloMosaic Idealize.ShloMosaic.TcCoe Idealize.SL.Sem

variable {F : FTy → Type} [FloatOps F]

/-- Column 0 of the edge list: the source nodes. -/
def srcCol (e : (⟨S320000x2, .i32⟩ : BufTy).Contents (Elt F)) : (⟨S320000, .i32⟩ : BufTy).Contents (Elt F) :=
  shapeCast S320000 (extractStridedSlice S320000x1 ![0, 0] e slices_S320000x2_S320000x1_0_0) shapeCasts_S320000x1_S320000

/-- Column 1 of the edge list: the destination nodes. -/
def dstCol (e : (⟨S320000x2, .i32⟩ : BufTy).Contents (Elt F)) : (⟨S320000, .i32⟩ : BufTy).Contents (Elt F) :=
  shapeCast S320000 (extractStridedSlice S320000x1 ![0, 1] e slices_S320000x2_S320000x1_0_1) shapeCasts_S320000x1_S320000

/-- A negative node number counted from the end: `v + 10000` where `v < 0`, else `v`. -/
def wrapIdx (col : (⟨S320000, .i32⟩ : BufTy).Contents (Elt F)) : (⟨S320000, .i32⟩ : BufTy).Contents (Elt F) :=
  select (cmpi .slt col (broadcastInDim S320000 ![] bcast_S_S320000 (constantI S_ 32 0#32)))
    (addi col (broadcastInDim S320000 ![] bcast_S_S320000 (constantI S_ 32 10000#32))) col

/-- The start indices `(node, 0)` of a gather from a one-column table. -/
def cellIdx (col : (⟨S320000, .i32⟩ : BufTy).Contents (Elt F)) : (⟨S320000x2, .i32⟩ : BufTy).Contents (Elt F) :=
  concatenate S320000x2 1
    [⟨S320000x1, broadcastInDim S320000x1 ![0] bcast_S320000_S320000x1_0 (wrapIdx col)⟩,
     ⟨S320000x1, broadcastInDim S320000x1 ![0] bcast_S320000_S320000x1_0
        (id (broadcastInDim S320000 ![] bcast_S_S320000 (constantI S_ 32 0#32)))⟩]
    concatenates_S320000x1_S320000x1_S320000x2_d1

/-- The per-edge attention logits before the rectifier: the source half at the source node plus the destination half
    at the destination node, plus the bias. -/
def scores (f : (⟨S10000x256, .f32⟩ : BufTy).Contents (Elt F)) (e : (⟨S320000x2, .i32⟩ : BufTy).Contents (Elt F))
    (wa : (⟨S512x1, .f32⟩ : BufTy).Contents (Elt F)) (ba : (⟨S1, .f32⟩ : BufTy).Contents (Elt F)) :
    (⟨S320000, .f32⟩ : BufTy).Contents (Elt F) :=
  addf
    (addf
      (Host.gather gather_S10000x1_S320000x2_S320000_n_01_n_n_01_1_11
        (Host.dotGeneral dot_S10000x256_S256x1_S10000x1_1_0_0_1_n_n none f
          (extractStridedSlice S256x1 ![0, 0] wa slices_S512x1_S256x1_0_0))
        (cellIdx (srcCol e)))
      (Host.gather gather_S10000x1_S320000x2_S320000_n_01_n_n_01_1_11
        (Host.dotGeneral dot_S10000x256_S256x1_S10000x1_1_0_0_1_n_n none f
          (extractStridedSlice S256x1 ![256, 0] wa slices_S512x1_S256x1_256_0))
        (cellIdx (dstCol e))))
    (broadcastInDim S320000 ![] bcast_S_S320000 (shapeCast S_ ba shapeCasts_S1_S_))

/-- The exponential of the leaky rectifier (slope 0.2) of the logits. -/
def expScores (s : (⟨S320000, .f32⟩ : BufTy).Contents (Elt F)) : (⟨S320000, .f32⟩ : BufTy).Contents (Elt F) :=
  Host.exp (select (cmpf .oge s (broadcastInDim S320000 ![] bcast_S_S320000 (constant S_ .f32 0x00000000#32))) s
    (mulf (broadcastInDim S320000 ![] bcast_S_S320000 (id (constant S_ .f32 0x3E4CCCCD#32))) s))

/-- The attention weights per edge: each exponential over the sum of the exponentials of its source node's edges. -/
def weights (s : (⟨S320000, .f32⟩ : BufTy).Contents (Elt F)) (e : (⟨S320000x2, .i32⟩ : BufTy).Contents (Elt F)) :
    (⟨S320000, .f32⟩ : BufTy).Contents (Elt F) :=
  Host.divf (expScores s)
    (Host.gather gather_S10000_S320000x1_S320000_n_0_n_n_0_1_1
      (Host.scatterAdd scatter_S10000_S320000x1_S320000_n_0_0_1
        (broadcastInDim S10000 ![] bcast_S_S10000 (constant S_ .f32 0x00000000#32))
        (broadcastInDim S320000x1 ![0] bcast_S320000_S320000x1_0 (srcCol e))
        (expScores s))
      (broadcastInDim S320000x1 ![0] bcast_S320000_S320000x1_0 (wrapIdx (srcCol e))))

/-- The dense attention matrix: the weights added into a zero matrix at (source, destination). -/
def attn (s : (⟨S320000, .f32⟩ : BufTy).Contents (Elt F)) (e : (⟨S320000x2, .i32⟩ : BufTy).Contents (Elt F)) :
    (⟨S10000x10000, .f32⟩ : BufTy).Contents (Elt F) :=
  Host.scatterAdd scatter_S10000x10000_S320000x2_S320000_n_01_01_1
    (broadcastInDim S10000x10000 ![] bcast_S_S10000x10000 (constant S_ .f32 0x00000000#32))
    (concatenate S320000x2 1
      [⟨S320000x1, broadcastInDim S320000x1 ![0] bcast_S320000_S320000x1_0 (wrapIdx (srcCol e))⟩,
       ⟨S320000x1, broadcastInDim S320000x1 ![0] bcast_S320000_S320000x1_0 (wrapIdx (dstCol e))⟩]
      concatenates_S320000x1_S320000x1_S320000x2_d1)
    (weights s e)

end Cert.KernelIdeal.HostValue

end
-- ==== Proof.KernelHost.lean ====
/-
  The host stretches of the kernel program read back at the buffers the regions take.

  Before the first region the bias vector is re-laid as a `1 × 256` row, and the other two operands of the region are
  untouched. Before the second region the attention matrix and the features are each passed through a change of float
  format; the matrix is the stage `attn` of the stage `scores` of the first region's output.
-/
import proofs.«150314_j48284022342211_1_alg».proof.Proof.KernelStages
import proofs.«150314_j48284022342211_1_alg».proof.Proof.Gen.KernelIdeal.Launch
import Idealize.ShloMosaic.Lib.StableHlo.Run

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-! ## The stretches read back -/

/-- Before the first region: the bias as a row. -/
theorem entry0_row (Z : Valuation τ sig (Elt F)) :
    after hostOps0 Z (Proc.devRef .tc main_v0)
      = (shapeCast S1x256 (Z (Proc.devRef .tc main_arg3)) shapeCasts_S256_S1x256 : (⟨S1x256, .f32⟩ : BufTy).Contents (Elt F)) := by
  after_results; rfl

theorem entry0_x (Z : Valuation τ sig (Elt F)) :
    after hostOps0 Z (Proc.devRef .tc main_arg0) = Z (Proc.devRef .tc main_arg0) := by
  after_results
theorem entry0_w (Z : Valuation τ sig (Elt F)) :
    after hostOps0 Z (Proc.devRef .tc main_arg2) = Z (Proc.devRef .tc main_arg2) := by
  after_results

attribute [local irreducible] Host.gather Host.scatterAdd concatenate in
set_option maxRecDepth 65536 in
set_option maxHeartbeats 4000000 in
/-- Before the second region: the attention matrix, format-changed. -/
theorem entry1_attn (Z : Valuation τ sig (Elt F)) :
    after hostOps1_2 (after hostOps1_1 (after hostOps1 Z)) (Proc.devRef .tc main_v64)
      = (truncf .bf16 (attn (scores (Z (Proc.devRef .tc main_v1)) (Z (Proc.devRef .tc main_arg1)) (Z (Proc.devRef .tc main_arg4))
            (Z (Proc.devRef .tc main_arg5))) (Z (Proc.devRef .tc main_arg1))) bitsLt_bf16_f32
          : (⟨S10000x10000, .bf16⟩ : BufTy).Contents (Elt F)) := by
  after_results_simp
  rfl

attribute [local irreducible] Host.gather Host.scatterAdd concatenate in
set_option maxRecDepth 65536 in
set_option maxHeartbeats 4000000 in
/-- Before the second region: the features, format-changed. -/
theorem entry1_feats (Z : Valuation τ sig (Elt F)) :
    after hostOps1_2 (after hostOps1_1 (after hostOps1 Z)) (Proc.devRef .tc main_v65)
      = (truncf .bf16 (Z (Proc.devRef .tc main_v1)) bitsLt_bf16_f32 : (⟨S10000x256, .bf16⟩ : BufTy).Contents (Elt F)) := by
  after_results_simp
  try rfl

end Cert.KernelIdeal.HostValue

end
-- ==== Proof.KernelRun.lean ====
/-
  The kernel program's run with its result named.

  The program is two kernel regions among stretches of host operations. The contents of every buffer at each boundary
  are a fold from the launch memory: a host stretch applies its operations, a region leaves its arrays at what its
  write-backs produce and every other buffer as it was. At the end every buffer that outlives the regions holds the last
  boundary's contents; in particular the result buffer does, and the six argument arrays hold what they were launched
  with.
-/
import proofs.«150314_j48284022342211_1_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents of the
    last boundary, and the argument arrays end as launched. -/
theorem run : θ_run defs (onTc (τ := τ) (main (F := F))) ⟨m, fun _ => 0, ρ⟩ (fun r => ∀ c : Dev nD,
      r.2.mem ((c.tc : Thread nD τ).loc main_v66) = W6 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v66 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibBiasRow.lean ====
/-
  A dense layer whose bias arrives as a `[1, N]` row.

  A vector unit that is handed the bias already laid out as one row of `N` entries forms `x · w + b` by a matrix
  multiplication into a zero accumulator plus that row — passed through a shape cast that changes nothing — broadcast over
  the `M` rows. Entry `(p, q)` of the result is `(∑ k, x (p, k) · w (k, q)) + b (0, q)`: the array `dense x w (rowBias b)`.
-/
import proofs.«150314_j48284022342211_1_alg».proof.Proof.LibDenseLayer
import proofs.«150314_j48284022342211_1_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibBiasRow

open Idealize.ShloMosaic Idealize.ShloMosaic.ValueIdx Cert.DenseLayer

/-- A `[1, N]` bias row as a function of the column. -/
def rowBias {N : ℕ} (b : (⟨2, ![1, N]⟩ : Shape).Idx → EReal) : Fin N → EReal := fun q => b (ix2 (0 : Fin 1) q)

/-- The layer as a vector unit spells it when the bias is a `[1, N]` row: the product into a zero accumulator, plus the row
    broadcast over the rows. -/
theorem vec_layer_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (rowBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]

end Cert.LibBiasRow

end
-- ==== Proof.RegionFeats.lean ====
/-
  The feature layer's kernel region, read as one function of the arrays it finds.

  The region walks the 10000 rows of the node-feature array in ten blocks of 1000 rows. At each block it multiplies the block
  by the whole 256 × 256 weight array into a zero accumulator, adds the bias row broadcast over the block's rows, and writes
  the 1000 × 256 result back over the same rows of the output array. An entry of a dense layer depends on one row of the
  input only, so the ten blocks together are the dense layer of the whole array.
-/
import proofs.«150314_j48284022342211_1_alg».proof.Proof.Gen.KernelIdeal.Frame
import proofs.«150314_j48284022342211_1_alg».proof.Proof.LibBiasRow
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx Cert.DenseLayer Cert.LibBiasRow
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores for one block of rows: the dense layer of that block (rounding the operands to a narrower format
    changes nothing on the extended reals). -/
theorem feats_block (x : Vec Ideal S1000x256 .f32) (w : Vec Ideal S256x256 .f32) (b : Vec Ideal S1x256 .f32) :
    k0_pay1 x w b = dense x w (rowBias b) := by
  unfold k0_pay1
  exact vec_layer_row _ rfl none x w b _ _

/-- The block index of each window at grid point t: the row windows (the input rows and the output rows) are at block
    t of their first axis, the weight array and the bias row are whole. -/
theorem feats_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of the layer on a block of rows is the entry of the layer on the whole array in the row the block's row is. -/
theorem feats_entry (X : S10000x256.Idx → EReal) (W : S256x256.Idx → EReal) (B : S1x256.Idx → EReal)
    (xb : S1000x256.Idx → EReal) (wb : S256x256.Idx → EReal) (bb : S1x256.Idx → EReal)
    (p : Fin 1000) (q : Fin 256) (R : Fin 10000)
    (hx : ∀ k : Fin 256, xb (ix2 p k) = X (ix2 R k)) (hw : wb = W) (hb : bb = B) :
    dense xb wb (rowBias bb) (ix2 p q) = dense X W (rowBias B) (ix2 R q) := by
  subst hw hb
  rw [dense_ix2, dense_ix2]
  exact denseAt_rows X xb wb (rowBias bb) p R q hx

/-- Row p of the input window's block at point t is row 1000 t + p of the array. -/
theorem feats_rows_block (c : Dev nD) (t : Fin cfg0.N) (p : Fin 1000) (k : Fin 256) (R : Fin 10000)
    (hR : R.val = t.val * 1000 + p.val) :
    (iblk0 V c 0 t : S1000x256.Idx → EReal) (ix2 p k) = (V c main_arg0 : S10000x256.Idx → EReal) (ix2 R k) := by
  obtain ⟨e0, e1, -⟩ := feats_index t
  unfold iblk0
  rw [View.read_apply]
  show V c main_arg0 _ = V c main_arg0 _
  congr 1
  funext a
  apply Fin.ext
  match a with
  | ⟨0, _⟩ => show win0_0.index t (0 : Fin 2) * 1000 + 1 * p.val = R.val; rw [e0, hR]; omega
  | ⟨1, _⟩ => show win0_0.index t (1 : Fin 2) * 256 + 1 * k.val = k.val; rw [e1]; omega

/-- The weight window's block is the whole weight array at every point. -/
theorem feats_weights_block (c : Dev nD) (t : Fin cfg0.N) :
    (iblk0 V c 1 t : S256x256.Idx → EReal) = (V c main_arg2 : S256x256.Idx → EReal) := by
  obtain ⟨-, -, e0, e1, -⟩ := feats_index t
  funext y
  unfold iblk0
  rw [View.read_apply]
  show V c main_arg2 _ = V c main_arg2 _
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The bias window's block is the whole bias row at every point. -/
theorem feats_bias_block (c : Dev nD) (t : Fin cfg0.N) :
    (iblk0 V c 2 t : S1x256.Idx → EReal) = (V c main_v0 : S1x256.Idx → EReal) := by
  obtain ⟨-, -, -, -, e0, e1, -⟩ := feats_index t
  funext y
  unfold iblk0
  rw [View.read_apply]
  show V c main_v0 _ = V c main_v0 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- The dense layer of the arrays the region finds. -/
abbrev featsOf (c : Dev nD) : S10000x256.Idx → EReal :=
  dense (V c main_arg0 : S10000x256.Idx → EReal) (V c main_arg2 : S256x256.Idx → EReal)
    (rowBias (V c main_v0 : S1x256.Idx → EReal))

/-- What point t writes back is block t of the dense layer of the whole arrays. -/
theorem feats_flushed (c : Dev nD) (t : Fin cfg0.N) :
    (dat0 V c).flushed 3 t = ((cfg0.win 3).blk t).view.read (Elt Ideal) (featsOf V c) := by
  show (cfg0.win 3).cut (grid0.coords t) ((dat0 V c).after 3 t) = _
  rw [after0_3]
  unfold out0_3
  rw [View.canon_unit_zero zero_offsets]
  simp only [View.ld_unit_zero (S := S1000x256) zero_offsets, View.ld_unit_zero (S := S256x256) zero_offsets,
    View.ld_unit_zero (S := S1x256) zero_offsets]
  rw [feats_block]
  obtain ⟨-, -, -, -, -, -, e0, e1⟩ := feats_index t
  funext j
  obtain ⟨p, q, rfl⟩ : ∃ (p : Fin 1000) (q : Fin 256), j = ix2 p q := ⟨j 0, j 1, eq_ix2 j⟩
  have ht : t.val < 10 := lt_of_lt_of_eq t.isLt N_0
  have hi : ((cfg0.win 3).blk t).view.emb (ix2 p q) = ix2 (⟨t.val * 1000 + p.val, by omega⟩ : Fin 10000) q := by
    funext a
    apply Fin.ext
    match a with
    | ⟨0, _⟩ => show win0_3.index t (0 : Fin 2) * 1000 + 1 * p.val = t.val * 1000 + p.val; rw [e0]; omega
    | ⟨1, _⟩ => show win0_3.index t (1 : Fin 2) * 256 + 1 * q.val = q.val; rw [e1]; omega
  show dense (iblk0 V c 0 t : S1000x256.Idx → EReal) (iblk0 V c 1 t : S256x256.Idx → EReal)
      (rowBias (iblk0 V c 2 t : S1x256.Idx → EReal)) (ix2 p q)
    = featsOf V c (((cfg0.win 3).blk t).view.emb (ix2 p q))
  rw [hi]
  exact feats_entry _ _ _ _ _ _ p q _ (fun k => feats_rows_block V c t p k _ rfl) (feats_weights_block V c t)
    (feats_bias_block V c t)

/-- An index of the output array is in point t's block iff each coordinate is in the block's range on its axis. -/
theorem feats_mem_block (t : Fin cfg0.N) (i : S10000x256.Idx) :
    i ∈ ((cfg0.win 3).blk t).view.set
      ↔ ∀ a : Fin 2, win0_3.index t a * S1000x256.size a ≤ (i a).val ∧ (i a).val < win0_3.index t a * S1000x256.size a + S1000x256.size a := by
  show i ∈ ((View.whole main_v1).slice (win0_3.rect t)).set ↔ _
  rw [View.set_slice_whole, Rect.mem_set_unit]
  exact Iff.rfl

/-- Every row of the output array is in some point's block: row r is in the block of point r / 1000. -/
theorem feats_cover (i : S10000x256.Idx) :
    ∃ t : Fin cfg0.N, (cfg0.win 3).flush t = true ∧ i ∈ ((cfg0.win 3).blk t).view.set := by
  have h0 : (i 0).val < 10000 := (i 0).isLt
  have h1 : (i 1).val < 256 := (i 1).isLt
  have hN : cfg0.N = 10 := N_0
  let t : Fin cfg0.N := ⟨(i 0).val / 1000, by rw [hN]; omega⟩
  obtain ⟨-, -, -, -, -, -, e0, e1⟩ := feats_index t
  have ht : t.val = (i 0).val / 1000 := rfl
  refine ⟨t, flush0_3 t, ?_⟩
  rw [feats_mem_block]
  intro a
  match a with
  | ⟨0, _⟩ => show win0_3.index t (0 : Fin 2) * 1000 ≤ (i 0).val ∧ (i 0).val < win0_3.index t (0 : Fin 2) * 1000 + 1000; rw [e0, ht]; omega
  | ⟨1, _⟩ => show win0_3.index t (1 : Fin 2) * 256 ≤ (i 1).val ∧ (i 1).val < win0_3.index t (1 : Fin 2) * 256 + 256; rw [e1]; omega

/-- After the region's ten points the output array holds the dense layer of the whole node-feature array. -/
theorem feats_array (c : Dev nD) :
    (dat0 (F := Ideal) V c).arrAt 3 cfg0.N
      = dense (V c main_arg0 : S10000x256.Idx → EReal) (V c main_arg2 : S256x256.Idx → EReal)
          (rowBias (V c main_v0 : S1x256.Idx → EReal)) :=
  (dat0 V c).arrAt_eq_of_cover 3 (featsOf V c) (fun t _ => feats_flushed V c t) feats_cover

end Cert.KernelIdeal.RegionValue

end
-- ==== Proof.MatProd.lean ====
/-
  The matrix product `a · b` of an `M × K` and a `K × N` array of extended reals, as one function of the output index:
  entry `(p, q)` is the sum over `k` of `a (p, k) · b (k, q)`. An entry depends on ONE row of `a` only, so a block of
  consecutive rows of the product is the product of that block of rows of `a` with the whole of `b`.
-/
import Idealize.ShloMosaic.Lib.ValueIdx

noncomputable section

open scoped BigOperators

namespace Cert.MatProd

open Idealize.ShloMosaic Idealize.ShloMosaic.ValueIdx

/-- Entry `(p, q)` of `a · b`. -/
def matAt {M K N : ℕ} (a : (⟨2, ![M, K]⟩ : Shape).Idx → EReal) (b : (⟨2, ![K, N]⟩ : Shape).Idx → EReal)
    (p : Fin M) (q : Fin N) : EReal :=
  ∑ k : Fin K, a (ix2 p k) * b (ix2 k q)

/-- The array `a · b`. -/
def matProd {M K N : ℕ} (a : (⟨2, ![M, K]⟩ : Shape).Idx → EReal) (b : (⟨2, ![K, N]⟩ : Shape).Idx → EReal) :
    (⟨2, ![M, N]⟩ : Shape).Idx → EReal :=
  fun i => matAt a b (i 0) (i 1)

theorem matProd_ix2 {M K N : ℕ} (a : (⟨2, ![M, K]⟩ : Shape).Idx → EReal) (b : (⟨2, ![K, N]⟩ : Shape).Idx → EReal)
    (p : Fin M) (q : Fin N) : matProd a b (ix2 p q) = matAt a b p q := rfl

/-- Row `p` of the product of a block of rows is row `P` of the whole product, when row `p` of the block is row `P`
    of the array. -/
theorem matAt_rows {M m K N : ℕ} (a : (⟨2, ![M, K]⟩ : Shape).Idx → EReal) (ab : (⟨2, ![m, K]⟩ : Shape).Idx → EReal)
    (b : (⟨2, ![K, N]⟩ : Shape).Idx → EReal) (p : Fin m) (P : Fin M) (q : Fin N)
    (h : ∀ k : Fin K, ab (ix2 p k) = a (ix2 P k)) : matAt ab b p q = matAt a b P q := by
  unfold matAt
  exact Finset.sum_congr rfl fun k _ => by rw [h k]

end Cert.MatProd

end
-- ==== Proof.RegionAggregate.lean ====
/-
  The aggregation kernel region, read as one function of the arrays it finds.

  The region walks the 10000 rows of the attention array in twenty-five blocks of 400 rows. At each block it multiplies the
  400 × 10000 block by the whole 10000 × 256 feature array into a zero accumulator and writes the 400 × 256 result back over
  the same rows of the output array. An entry of a matrix product depends on one row of the left factor only, so the
  twenty-five blocks together are the product of the whole arrays.
-/
import proofs.«150314_j48284022342211_1_alg».proof.Proof.Gen.KernelIdeal.Frame
import proofs.«150314_j48284022342211_1_alg».proof.Proof.LibPlainMatmul
import proofs.«150314_j48284022342211_1_alg».proof.Proof.MatProd
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx Cert.MatProd
open Idealize.ShloMosaic.Pipeline (Dat)

variable (V : (c : Dev nD) → (b : Ref sig .tc) → Buf (Elt Ideal) ((c : Thread nD τ).loc b))

theorem zero_offsets_pair : (![0, 0] : Fin 2 → Nat) = fun _ => 0 := funext fun a => by fin_cases a <;> rfl

/-- What the body stores for one block of rows: the product of that block with the whole right factor (the two shape casts
    are to the shapes the operands already have). -/
theorem aggregate_block (a : Vec Ideal S400x10000 .bf16) (b : Vec Ideal S10000x256 .bf16) :
    k1_pay1 a b = matProd a b := by
  unfold k1_pay1
  funext i
  obtain ⟨p, q, rfl⟩ : ∃ (p : Fin 400) (q : Fin 256), i = ix2 p q := ⟨i 0, i 1, eq_ix2 i⟩
  refine (Cert.LibPlainMatmul.matmul_plain_zero_apply dot_S400x10000_S10000x256_S400x256_1_0_0_1_n_n rfl none _ _ p q).trans ?_
  rw [shapeCast_self, shapeCast_self]
  rfl

/-- The block index of each window at grid point t: the attention rows and the output rows are at block t of their first
    axis, the feature array is whole. -/
theorem aggregate_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of the product of a block of rows is the entry of the whole product in the row the block's row is. -/
theorem aggregate_entry (A : S10000x10000.Idx → EReal) (B : S10000x256.Idx → EReal)
    (ab : S400x10000.Idx → EReal) (bb : S10000x256.Idx → EReal) (p : Fin 400) (q : Fin 256) (R : Fin 10000)
    (ha : ∀ k : Fin 10000, ab (ix2 p k) = A (ix2 R k)) (hb : bb = B) :
    matProd ab bb (ix2 p q) = matProd A B (ix2 R q) := by
  subst hb
  rw [matProd_ix2, matProd_ix2]
  exact matAt_rows A ab bb p R q ha

/-- Row p of the attention window's block at point t is row 400 t + p of the array. -/
theorem aggregate_rows_block (c : Dev nD) (t : Fin cfg1.N) (p : Fin 400) (k : Fin 10000) (R : Fin 10000)
    (hR : R.val = t.val * 400 + p.val) :
    (iblk1 V c 0 t : S400x10000.Idx → EReal) (ix2 p k) = (V c main_v64 : S10000x10000.Idx → EReal) (ix2 R k) := by
  obtain ⟨e0, e1, -⟩ := aggregate_index t
  unfold iblk1
  rw [View.read_apply]
  show V c main_v64 _ = V c main_v64 _
  congr 1
  funext a
  apply Fin.ext
  match a with
  | ⟨0, _⟩ => show win1_0.index t (0 : Fin 2) * 400 + 1 * p.val = R.val; rw [e0, hR]; omega
  | ⟨1, _⟩ => show win1_0.index t (1 : Fin 2) * 10000 + 1 * k.val = k.val; rw [e1]; omega

/-- The feature window's block is the whole feature array at every point. -/
theorem aggregate_feats_block (c : Dev nD) (t : Fin cfg1.N) :
    (iblk1 V c 1 t : S10000x256.Idx → EReal) = (V c main_v65 : S10000x256.Idx → EReal) := by
  obtain ⟨-, -, e0, e1, -⟩ := aggregate_index t
  funext y
  unfold iblk1
  rw [View.read_apply]
  show V c main_v65 _ = V c main_v65 _
  congr 1
  funext a
  apply Fin.ext
  match a with
  | ⟨0, _⟩ => show win1_1.index t (0 : Fin 2) * 10000 + 1 * (y 0).val = (y 0).val; rw [e0]; omega
  | ⟨1, _⟩ => show win1_1.index t (1 : Fin 2) * 256 + 1 * (y 1).val = (y 1).val; rw [e1]; omega

/-- The product of the arrays the region finds. -/
abbrev aggregateOf (c : Dev nD) : S10000x256.Idx → EReal :=
  matProd (V c main_v64 : S10000x10000.Idx → EReal) (V c main_v65 : S10000x256.Idx → EReal)

/-- What point t writes back is block t of the product of the whole arrays. -/
theorem aggregate_flushed (c : Dev nD) (t : Fin cfg1.N) :
    (dat1 V c).flushed 2 t = ((cfg1.win 2).blk t).view.read (Elt Ideal) (aggregateOf V c) := by
  show (cfg1.win 2).cut (grid1.coords t) ((dat1 V c).after 2 t) = _
  rw [after1_2]
  unfold out1_2
  rw [View.canon_unit_zero zero_offsets_pair]
  simp only [View.ld_unit_zero (S := S400x10000) zero_offsets_pair, View.ld_unit_zero (S := S10000x256) zero_offsets_pair]
  rw [aggregate_block]
  obtain ⟨-, -, -, -, e0, e1⟩ := aggregate_index t
  funext j
  obtain ⟨p, q, rfl⟩ : ∃ (p : Fin 400) (q : Fin 256), j = ix2 p q := ⟨j 0, j 1, eq_ix2 j⟩
  have ht : t.val < 25 := lt_of_lt_of_eq t.isLt N_1
  have hi : ((cfg1.win 2).blk t).view.emb (ix2 p q) = ix2 (⟨t.val * 400 + p.val, by omega⟩ : Fin 10000) q := by
    funext a
    apply Fin.ext
    match a with
    | ⟨0, _⟩ => show win1_2.index t (0 : Fin 2) * 400 + 1 * p.val = t.val * 400 + p.val; rw [e0]; omega
    | ⟨1, _⟩ => show win1_2.index t (1 : Fin 2) * 256 + 1 * q.val = q.val; rw [e1]; omega
  show matProd (iblk1 V c 0 t : S400x10000.Idx → EReal) (iblk1 V c 1 t : S10000x256.Idx → EReal) (ix2 p q)
    = aggregateOf V c (((cfg1.win 2).blk t).view.emb (ix2 p q))
  rw [hi]
  exact aggregate_entry _ _ _ _ p q _ (fun k => aggregate_rows_block V c t p k _ rfl) (aggregate_feats_block V c t)

/-- An index of the output array is in point t's block iff each coordinate is in the block's range on its axis. -/
theorem aggregate_mem_block (t : Fin cfg1.N) (i : S10000x256.Idx) :
    i ∈ ((cfg1.win 2).blk t).view.set
      ↔ ∀ a : Fin 2, win1_2.index t a * S400x256.size a ≤ (i a).val ∧ (i a).val < win1_2.index t a * S400x256.size a + S400x256.size a := by
  show i ∈ ((View.whole main_v66).slice (win1_2.rect t)).set ↔ _
  rw [View.set_slice_whole, Rect.mem_set_unit]
  exact Iff.rfl

/-- Every row of the output array is in some point's block: row r is in the block of point r / 400. -/
theorem aggregate_cover (i : S10000x256.Idx) :
    ∃ t : Fin cfg1.N, (cfg1.win 2).flush t = true ∧ i ∈ ((cfg1.win 2).blk t).view.set := by
  have h0 : (i 0).val < 10000 := (i 0).isLt
  have h1 : (i 1).val < 256 := (i 1).isLt
  have hN : cfg1.N = 25 := N_1
  let t : Fin cfg1.N := ⟨(i 0).val / 400, by rw [hN]; omega⟩
  obtain ⟨-, -, -, -, e0, e1⟩ := aggregate_index t
  have ht : t.val = (i 0).val / 400 := rfl
  refine ⟨t, flush1_2 t, ?_⟩
  rw [aggregate_mem_block]
  intro a
  match a with
  | ⟨0, _⟩ => show win1_2.index t (0 : Fin 2) * 400 ≤ (i 0).val ∧ (i 0).val < win1_2.index t (0 : Fin 2) * 400 + 400; rw [e0, ht]; omega
  | ⟨1, _⟩ => show win1_2.index t (1 : Fin 2) * 256 ≤ (i 1).val ∧ (i 1).val < win1_2.index t (1 : Fin 2) * 256 + 256; rw [e1]; omega

/-- After the region's twenty-five points the output array holds the product of the whole attention array with the whole
    feature array. -/
theorem aggregate_array (c : Dev nD) :
    (dat1 (F := Ideal) V c).arrAt 2 cfg1.N
      = matProd (V c main_v64 : S10000x10000.Idx → EReal) (V c main_v65 : S10000x256.Idx → EReal) :=
  (dat1 V c).arrAt_eq_of_cover 2 (aggregateOf V c) (fun t _ => aggregate_flushed V c t) aggregate_cover

end Cert.KernelIdeal.RegionValue

end
-- ==== Proof.KernelValue.lean ====
/-
  The kernel program's result as one function of its six arguments.

  Region 0 leaves the features `x · w + b` in its output array (each block of 1000 rows is the layer on that block of rows
  of `x`). The host stages turn the features, the edge list and the attention parameters into the dense attention matrix.
  Region 1 multiplies that matrix, block of 400 rows by block, with the features. Every buffer a stage reads is followed
  back through the boundaries to the launch memory: a region changes its own arrays only, a host stretch its own results
  only.
-/
import proofs.«150314_j48284022342211_1_alg».proof.Proof.KernelHost
import proofs.«150314_j48284022342211_1_alg».proof.Proof.KernelRun
import proofs.«150314_j48284022342211_1_alg».proof.Proof.RegionFeats
import proofs.«150314_j48284022342211_1_alg».proof.Proof.RegionAggregate

noncomputable section

namespace Cert.KernelIdeal.Named

open Cert.KernelIdeal Cert.KernelIdeal.Gen
open Idealize.ShloMosaic Idealize.ShloMosaic.TcCoe Idealize.SL.Sem Idealize.ShloMosaic.StableHlo
open Cert.KernelIdeal.HostValue

/-- The features the first region computes: the dense layer of `x` with weights `w` and the bias `b` laid as a row. -/
def featsK (x : (⟨S10000x256, .f32⟩ : BufTy).Contents (Elt Ideal)) (w : (⟨S256x256, .f32⟩ : BufTy).Contents (Elt Ideal))
    (b : (⟨S256, .f32⟩ : BufTy).Contents (Elt Ideal)) : (⟨S10000x256, .f32⟩ : BufTy).Contents (Elt Ideal) :=
  Cert.DenseLayer.dense (x : S10000x256.Idx → EReal) (w : S256x256.Idx → EReal)
    (Cert.LibBiasRow.rowBias (shapeCast S1x256 b shapeCasts_S256_S1x256 : S1x256.Idx → EReal))

/-- The program's result: the attention matrix of the features' logits times the features, both through a change of
    float format. -/
def kernelOut (x : (⟨S10000x256, .f32⟩ : BufTy).Contents (Elt Ideal)) (e : (⟨S320000x2, .i32⟩ : BufTy).Contents (Elt Ideal))
    (w : (⟨S256x256, .f32⟩ : BufTy).Contents (Elt Ideal)) (b : (⟨S256, .f32⟩ : BufTy).Contents (Elt Ideal))
    (wa : (⟨S512x1, .f32⟩ : BufTy).Contents (Elt Ideal)) (ba : (⟨S1, .f32⟩ : BufTy).Contents (Elt Ideal)) :
    (⟨S10000x256, .f32⟩ : BufTy).Contents (Elt Ideal) :=
  Cert.MatProd.matProd
    (truncf .bf16 (attn (F := Ideal) (scores (F := Ideal) (featsK x w b) e wa ba) e) bitsLt_bf16_f32 : FVec Ideal S10000x10000 .bf16)
    (truncf .bf16 (featsK x w b) bitsLt_bf16_f32 : FVec Ideal S10000x256 .bf16)

variable (m : (ℓ : Loc nD τ sig) → Buf (Elt Ideal) ℓ) (ρ : Dev nD → PrngReg) (c : Dev nD)

/-! ## Buffers no stage before the second region writes -/

theorem keep0_arg1 (Z : Valuation τ sig (Elt Ideal)) :
    after hostOps0 Z (Proc.devRef .tc main_arg1) = Z (Proc.devRef .tc main_arg1) := by after_results
theorem keep0_arg4 (Z : Valuation τ sig (Elt Ideal)) :
    after hostOps0 Z (Proc.devRef .tc main_arg4) = Z (Proc.devRef .tc main_arg4) := by after_results
theorem keep0_arg5 (Z : Valuation τ sig (Elt Ideal)) :
    after hostOps0 Z (Proc.devRef .tc main_arg5) = Z (Proc.devRef .tc main_arg5) := by after_results

theorem mid_arg1 : W2 m ρ c (Proc.devRef .tc main_arg1) = m ((c.tc : Thread nD τ).loc main_arg1) :=
  (W2_of_ne m ρ c main_arg1 (by decide)).trans (keep0_arg1 (W0 m ρ c))
theorem mid_arg4 : W2 m ρ c (Proc.devRef .tc main_arg4) = m ((c.tc : Thread nD τ).loc main_arg4) :=
  (W2_of_ne m ρ c main_arg4 (by decide)).trans (keep0_arg4 (W0 m ρ c))
theorem mid_arg5 : W2 m ρ c (Proc.devRef .tc main_arg5) = m ((c.tc : Thread nD τ).loc main_arg5) :=
  (W2_of_ne m ρ c main_arg5 (by decide)).trans (keep0_arg5 (W0 m ρ c))

/-! ## The first region's output -/

theorem feats_value :
    W2 m ρ c (Proc.devRef .tc main_v1)
      = featsK (m ((c.tc : Thread nD τ).loc main_arg0)) (m ((c.tc : Thread nD τ).loc main_arg2)) (m ((c.tc : Thread nD τ).loc main_arg3)) := by
  have hx : V1 m ρ c main_arg0 = m ((c.tc : Thread nD τ).loc main_arg0) := entry0_x (W0 m ρ c)
  have hw : V1 m ρ c main_arg2 = m ((c.tc : Thread nD τ).loc main_arg2) := entry0_w (W0 m ρ c)
  have hb : V1 m ρ c main_v0 = shapeCast S1x256 (m ((c.tc : Thread nD τ).loc main_arg3)) shapeCasts_S256_S1x256 := entry0_row (W0 m ρ c)
  refine (W2_arr m ρ c 3).trans ?_
  rw [Cert.KernelIdeal.RegionValue.feats_array (V1 m ρ) c, hx, hw, hb]
  rfl

/-! ## The second region's output -/

theorem out_value :
    W6 m ρ c (Proc.devRef .tc main_v66)
      = kernelOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  have hA : V5 m ρ c main_v64 = _ := entry1_attn (W2 m ρ c)
  have hf : V5 m ρ c main_v65 = _ := entry1_feats (W2 m ρ c)
  refine (W6_arr m ρ c 2).trans ?_
  rw [Cert.KernelIdeal.RegionValue.aggregate_array (V5 m ρ) c, hA, hf, feats_value m ρ c, mid_arg1 m ρ c, mid_arg4 m ρ c, mid_arg5 m ρ c]
  rfl

/-- Every weakly fair execution of the kernel program terminates without a fault, its result at `kernelOut` of the
    arguments, the arguments unchanged. -/
theorem run_value : θ_run defs (onTc (τ := τ) (main (F := Ideal))) ⟨m, fun _ => 0, ρ⟩ (fun r => ∀ c : Dev nD,
      r.2.mem ((c.tc : Thread nD τ).loc main_v66)
        = kernelOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out_value m ρ c), (h c).2⟩) (run (F := Ideal) m ρ)

end Cert.KernelIdeal.Named

end
-- ==== Proof.RefOps.lean ====
import proofs.«150314_j48284022342211_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The reference as pure functions of its arguments

Each definition is the composition of the program's operations, in program order and with the program's
spelling of every constant, broadcast, comparison and select. -/

/-- Node features: `x · w` plus the bias row broadcast down the rows. -/
def featsR (x : FVec F S10000x256 .f32) (w : FVec F S256x256 .f32) (b : FVec F S256 .f32) : FVec F S10000x256 .f32 :=
  addf (Host.dotGeneral dot_S10000x256_S256x256_S10000x256_1_0_0_1_n_n none x w)
    (broadcastInDim S10000x256 ![0, 1] bcast_S1x256_S10000x256_0_1 (broadcastInDim S1x256 ![1] bcast_S256_S1x256_1 b))

/-- Column 0 of the edge table (the source node of each edge), as a flat vector. -/
def srcCol (e : IVec S320000x2 32) : IVec S320000 32 :=
  shapeCast S320000 (extractStridedSlice S320000x1 ![0, 0] e slices_S320000x2_S320000x1_0_0) shapeCasts_S320000x1_S320000

/-- Column 1 of the edge table (the destination node of each edge), as a flat vector. -/
def dstCol (e : IVec S320000x2 32) : IVec S320000 32 :=
  shapeCast S320000 (extractStridedSlice S320000x1 ![0, 1] e slices_S320000x2_S320000x1_0_1) shapeCasts_S320000x1_S320000

/-- A negative index counted from the end: `col + 10000` where `col < 0`, else `col`. -/
def wrapIdx (col : IVec S320000 32) : IVec S320000 32 :=
  select (cmpi .slt col (broadcastInDim S320000 ![] bcast_S_S320000 (constantI S_ 32 0#32)))
    (addi col (broadcastInDim S320000 ![] bcast_S_S320000 (constantI S_ 32 10000#32))) col

/-- Edge scores: the features of each edge's two end nodes side by side, contracted with the attention vector,
    plus the scalar bias, flattened. -/
def scoresR (f : FVec F S10000x256 .f32) (e : IVec S320000x2 32) (wa : FVec F S512x1 .f32) (ba : FVec F S1 .f32) :
    FVec F S320000 .f32 :=
  shapeCast S320000
    (addf
      (Host.dotGeneral dot_S320000x512_S512x1_S320000x1_1_0_0_1_n_n none
        (concatenate S320000x512 1
          [⟨S320000x256, Host.gather gather_S10000x256_S320000x1_S320000x256_1_0_n_n_0_1_1256 f
              (broadcastInDim S320000x1 ![0] bcast_S320000_S320000x1_0 (wrapIdx (srcCol e)))⟩,
           ⟨S320000x256, Host.gather gather_S10000x256_S320000x1_S320000x256_1_0_n_n_0_1_1256 f
              (broadcastInDim S320000x1 ![0] bcast_S320000_S320000x1_0 (wrapIdx (dstCol e)))⟩]
          concatenates_S320000x256_S320000x256_S320000x512_d1)
        wa)
      (broadcastInDim S320000x1 ![0, 1] bcast_S1x1_S320000x1_0_1 (broadcastInDim S1x1 ![1] bcast_S1_S1x1_1 ba)))
    shapeCasts_S320000x1_S320000

/-- The attention matrix: leaky ReLU (slope 0.2) of the scores, exponentiated, divided by the sum over the edges
    sharing the source node, and summed into entry (source, destination). -/
def attnR (s : FVec F S320000 .f32) (e : IVec S320000x2 32) : FVec F S10000x10000 .f32 :=
  Host.scatterAdd scatter_S10000x10000_S320000x2_S320000_n_01_01_1
    (broadcastInDim S10000x10000 ![] bcast_S_S10000x10000 (constant S_ .f32 0x00000000#32))
    (concatenate S320000x2 1
      [⟨S320000x1, broadcastInDim S320000x1 ![0] bcast_S320000_S320000x1_0 (wrapIdx (srcCol e))⟩,
       ⟨S320000x1, broadcastInDim S320000x1 ![0] bcast_S320000_S320000x1_0 (wrapIdx (dstCol e))⟩]
      concatenates_S320000x1_S320000x1_S320000x2_d1)
    (Host.divf
      (Host.exp
        (select (cmpf .oge s (broadcastInDim S320000 ![] bcast_S_S320000 (constant S_ .f32 0x00000000#32))) s
          (mulf (broadcastInDim S320000 ![] bcast_S_S320000 (id (constant S_ .f32 0x3E4CCCCD#32))) s)))
      (Host.gather gather_S10000_S320000x1_S320000_n_0_n_n_0_1_1
        (Host.scatterAdd scatter_S10000_S320000x1_S320000_n_0_0_1
          (broadcastInDim S10000 ![] bcast_S_S10000 (constant S_ .f32 0x00000000#32))
          (broadcastInDim S320000x1 ![0] bcast_S320000_S320000x1_0 (srcCol e))
          (Host.exp
            (select (cmpf .oge s (broadcastInDim S320000 ![] bcast_S_S320000 (constant S_ .f32 0x00000000#32))) s
              (mulf (broadcastInDim S320000 ![] bcast_S_S320000 (id (constant S_ .f32 0x3E4CCCCD#32))) s))))
        (broadcastInDim S320000x1 ![0] bcast_S320000_S320000x1_0 (wrapIdx (srcCol e)))))

/-- The reference's result: the attention matrix times the node features. -/
def refOut (x : FVec F S10000x256 .f32) (e : IVec S320000x2 32) (w : FVec F S256x256 .f32) (b : FVec F S256 .f32)
    (wa : FVec F S512x1 .f32) (ba : FVec F S1 .f32) : FVec F S10000x256 .f32 :=
  Host.dotGeneral dot_S10000x10000_S10000x256_S10000x256_1_0_0_1_n_n none
    (attnR (scoresR (featsR x w b) e wa ba) e) (featsR x w b)

/-! ## The program as a list of operations -/

/-- The reference's operations in program order: the first thirty-three of the entry function, the seven of the
    leaky-ReLU helper (its select written through the inner where-helper) over that call's own buffers, then the
    remaining thirty-six. -/
abbrev ops : List (HloOp τ sig (Elt F)) :=
  [ StableHlo.binary main_arg0 main_arg2 main_v0 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.unary main_arg3 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S10000x256 ![0, 1] bcast_S1x256_S10000x256_0_1 : (⟨S1x256, .f32⟩ : BufTy).Contents (Elt F) → (⟨S10000x256, .f32⟩ : BufTy).Contents (Elt F)),
    StableHlo.binary main_v0 main_v2 main_v3 (addf : (⟨S10000x256, .f32⟩ : BufTy).Contents (Elt F) → (⟨S10000x256, .f32⟩ : BufTy).Contents (Elt F) → (⟨S10000x256, .f32⟩ : BufTy).Contents (Elt F)),
    StableHlo.unary main_arg1 main_v4 ((extractStridedSlice S320000x1 ![0, 0] · slices_S320000x2_S320000x1_0_0) : (⟨S320000x2, .i32⟩ : BufTy).Contents (Elt F) → (⟨S320000x1, .i32⟩ : BufTy).Contents (Elt F)),
    StableHlo.reshape main_v4 main_v5 rfl shapeCasts_S320000x1_S320000,
    StableHlo.unary main_arg1 main_v6 ((extractStridedSlice S320000x1 ![0, 1] · slices_S320000x2_S320000x1_0_1) : (⟨S320000x2, .i32⟩ : BufTy).Contents (Elt F) → (⟨S320000x1, .i32⟩ : BufTy).Contents (Elt F)),
    StableHlo.reshape main_v6 main_v7 rfl shapeCasts_S320000x1_S320000,
    StableHlo.nullary main_c (constantI S_ 32 0#32),
    StableHlo.unary main_c main_v8 (broadcastInDim S320000 ![] bcast_S_S320000 : (⟨S_, .i32⟩ : BufTy).Contents (Elt F) → (⟨S320000, .i32⟩ : BufTy).Contents (Elt F)),
    StableHlo.binary main_v5 main_v8 main_v9 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 10000#32),
    StableHlo.unary main_c_0 main_v10 (broadcastInDim S320000 ![] bcast_S_S320000 : (⟨S_, .i32⟩ : BufTy).Contents (Elt F) → (⟨S320000, .i32⟩ : BufTy).Contents (Elt F)),
    StableHlo.binary main_v5 main_v10 main_v11 (addi : (⟨S320000, .i32⟩ : BufTy).Contents (Elt F) → (⟨S320000, .i32⟩ : BufTy).Contents (Elt F) → (⟨S320000, .i32⟩ : BufTy).Contents (Elt F)),
    StableHlo.ternary main_v9 main_v11 main_v5 main_v12 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v12 main_v13 (broadcastInDim S320000x1 ![0] bcast_S320000_S320000x1_0 : (⟨S320000, .i32⟩ : BufTy).Contents (Elt F) → (⟨S320000x1, .i32⟩ : BufTy).Contents (Elt F)),
    StableHlo.binary main_v3 main_v13 main_v14 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_c_1 (constantI S_ 32 0#32),
    StableHlo.unary main_c_1 main_v15 (broadcastInDim S320000 ![] bcast_S_S320000 : (⟨S_, .i32⟩ : BufTy).Contents (Elt F) → (⟨S320000, .i32⟩ : BufTy).Contents (Elt F)),
    StableHlo.binary main_v7 main_v15 main_v16 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 10000#32),
    StableHlo.unary main_c_2 main_v17 (broadcastInDim S320000 ![] bcast_S_S320000 : (⟨S_, .i32⟩ : BufTy).Contents (Elt F) → (⟨S320000, .i32⟩ : BufTy).Contents (Elt F)),
    StableHlo.binary main_v7 main_v17 main_v18 (addi : (⟨S320000, .i32⟩ : BufTy).Contents (Elt F) → (⟨S320000, .i32⟩ : BufTy).Contents (Elt F) → (⟨S320000, .i32⟩ : BufTy).Contents (Elt F)),
    StableHlo.ternary main_v16 main_v18 main_v7 main_v19 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v19 main_v20 (broadcastInDim S320000x1 ![0] bcast_S320000_S320000x1_0 : (⟨S320000, .i32⟩ : BufTy).Contents (Elt F) → (⟨S320000x1, .i32⟩ : BufTy).Contents (Elt F)),
    StableHlo.binary main_v3 main_v20 main_v21 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.binary main_v14 main_v21 main_v22 ((fun a b => concatenate S320000x512 1 [⟨S320000x256, a⟩, ⟨S320000x256, b⟩] concatenates_S320000x256_S320000x256_S320000x512_d1) : (⟨S320000x256, .f32⟩ : BufTy).Contents (Elt F) → (⟨S320000x256, .f32⟩ : BufTy).Contents (Elt F) → (⟨S320000x512, .f32⟩ : BufTy).Contents (Elt F)),
    StableHlo.binary main_v22 main_arg4 main_v23 ((fun l r => Host.dotGeneral dot_S320000x512_S512x1_S320000x1_1_0_0_1_n_n none l r) : (⟨S320000x512, .f32⟩ : BufTy).Contents (Elt F) → (⟨S512x1, .f32⟩ : BufTy).Contents (Elt F) → (⟨S320000x1, .f32⟩ : BufTy).Contents (Elt F)),
    StableHlo.unary main_arg5 main_v24 (broadcastInDim S1x1 ![1] bcast_S1_S1x1_1 : (⟨S1, .f32⟩ : BufTy).Contents (Elt F) → (⟨S1x1, .f32⟩ : BufTy).Contents (Elt F)),
    StableHlo.unary main_v24 main_v25 (broadcastInDim S320000x1 ![0, 1] bcast_S1x1_S320000x1_0_1 : (⟨S1x1, .f32⟩ : BufTy).Contents (Elt F) → (⟨S320000x1, .f32⟩ : BufTy).Contents (Elt F)),
    StableHlo.binary main_v23 main_v25 main_v26 (addf : (⟨S320000x1, .f32⟩ : BufTy).Contents (Elt F) → (⟨S320000x1, .f32⟩ : BufTy).Contents (Elt F) → (⟨S320000x1, .f32⟩ : BufTy).Contents (Elt F)),
    StableHlo.reshape main_v26 main_v27 rfl shapeCasts_S320000x1_S320000,
    StableHlo.nullary main_cst (constant S_ .f32 0x3E4CCCCD#32),
    TRef.nullary main_call0.cst (constant S_ .f32 0x00000000#32),
    TRef.unary main_call0.cst main_call0.v0 (broadcastInDim S320000 ![] bcast_S_S320000),
    TRef.binary (.of main_v27 : TRef sig ⟨S320000, .f32⟩) main_call0.v0 main_call0.v1 (cmpf .oge),
    TRef.unary (.of main_cst : TRef sig ⟨S_, .f32⟩) main_call0.v2 id,
    TRef.unary main_call0.v2 main_call0.v3 (broadcastInDim S320000 ![] bcast_S_S320000),
    TRef.binary main_call0.v3 (.of main_v27 : TRef sig ⟨S320000, .f32⟩) main_call0.v4 mulf,
    TRef.ternary main_call0.v1 (.of main_v27 : TRef sig ⟨S320000, .f32⟩) main_call0.v4 main_call0.call0.v0 select,
    StableHlo.unary main_v28 main_v29 (Host.exp : (⟨S320000, .f32⟩ : BufTy).Contents (Elt F) → (⟨S320000, .f32⟩ : BufTy).Contents (Elt F)),
    StableHlo.nullary main_cst_3 (constant S_ .f32 0x00000000#32),
    StableHlo.unary main_cst_3 main_v30 (broadcastInDim S10000 ![] bcast_S_S10000 : (⟨S_, .f32⟩ : BufTy).Contents (Elt F) → (⟨S10000, .f32⟩ : BufTy).Contents (Elt F)),
    StableHlo.unary main_v5 main_v31 (broadcastInDim S320000x1 ![0] bcast_S320000_S320000x1_0 : (⟨S320000, .i32⟩ : BufTy).Contents (Elt F) → (⟨S320000x1, .i32⟩ : BufTy).Contents (Elt F)),
    StableHlo.ternary main_v30 main_v31 main_v29 main_v32 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_c_4 (constantI S_ 32 0#32),
    StableHlo.unary main_c_4 main_v33 (broadcastInDim S320000 ![] bcast_S_S320000 : (⟨S_, .i32⟩ : BufTy).Contents (Elt F) → (⟨S320000, .i32⟩ : BufTy).Contents (Elt F)),
    StableHlo.binary main_v5 main_v33 main_v34 (cmpi .slt : (⟨S320000, .i32⟩ : BufTy).Contents (Elt F) → (⟨S320000, .i32⟩ : BufTy).Contents (Elt F) → (⟨S320000, .i1⟩ : BufTy).Contents (Elt F)),
    StableHlo.nullary main_c_5 (constantI S_ 32 10000#32),
    StableHlo.unary main_c_5 main_v35 (broadcastInDim S320000 ![] bcast_S_S320000 : (⟨S_, .i32⟩ : BufTy).Contents (Elt F) → (⟨S320000, .i32⟩ : BufTy).Contents (Elt F)),
    StableHlo.binary main_v5 main_v35 main_v36 (addi : (⟨S320000, .i32⟩ : BufTy).Contents (Elt F) → (⟨S320000, .i32⟩ : BufTy).Contents (Elt F) → (⟨S320000, .i32⟩ : BufTy).Contents (Elt F)),
    StableHlo.ternary main_v34 main_v36 main_v5 main_v37 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v37 main_v38 (broadcastInDim S320000x1 ![0] bcast_S320000_S320000x1_0 : (⟨S320000, .i32⟩ : BufTy).Contents (Elt F) → (⟨S320000x1, .i32⟩ : BufTy).Contents (Elt F)),
    StableHlo.binary main_v32 main_v38 main_v39 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.binary main_v29 main_v39 main_v40 (Host.divf : (⟨S320000, .f32⟩ : BufTy).Contents (Elt F) → (⟨S320000, .f32⟩ : BufTy).Contents (Elt F) → (⟨S320000, .f32⟩ : BufTy).Contents (Elt F)),
    StableHlo.nullary main_cst_6 (constant S_ .f32 0x00000000#32),
    StableHlo.unary main_cst_6 main_v41 (broadcastInDim S10000x10000 ![] bcast_S_S10000x10000 : (⟨S_, .f32⟩ : BufTy).Contents (Elt F) → (⟨S10000x10000, .f32⟩ : BufTy).Contents (Elt F)),
    StableHlo.nullary main_c_7 (constantI S_ 32 0#32),
    StableHlo.unary main_c_7 main_v42 (broadcastInDim S320000 ![] bcast_S_S320000 : (⟨S_, .i32⟩ : BufTy).Contents (Elt F) → (⟨S320000, .i32⟩ : BufTy).Contents (Elt F)),
    StableHlo.binary main_v5 main_v42 main_v43 (cmpi .slt : (⟨S320000, .i32⟩ : BufTy).Contents (Elt F) → (⟨S320000, .i32⟩ : BufTy).Contents (Elt F) → (⟨S320000, .i1⟩ : BufTy).Contents (Elt F)),
    StableHlo.nullary main_c_8 (constantI S_ 32 10000#32),
    StableHlo.unary main_c_8 main_v44 (broadcastInDim S320000 ![] bcast_S_S320000 : (⟨S_, .i32⟩ : BufTy).Contents (Elt F) → (⟨S320000, .i32⟩ : BufTy).Contents (Elt F)),
    StableHlo.binary main_v5 main_v44 main_v45 (addi : (⟨S320000, .i32⟩ : BufTy).Contents (Elt F) → (⟨S320000, .i32⟩ : BufTy).Contents (Elt F) → (⟨S320000, .i32⟩ : BufTy).Contents (Elt F)),
    StableHlo.ternary main_v43 main_v45 main_v5 main_v46 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.nullary main_c_9 (constantI S_ 32 0#32),
    StableHlo.unary main_c_9 main_v47 (broadcastInDim S320000 ![] bcast_S_S320000 : (⟨S_, .i32⟩ : BufTy).Contents (Elt F) → (⟨S320000, .i32⟩ : BufTy).Contents (Elt F)),
    StableHlo.binary main_v7 main_v47 main_v48 (cmpi .slt : (⟨S320000, .i32⟩ : BufTy).Contents (Elt F) → (⟨S320000, .i32⟩ : BufTy).Contents (Elt F) → (⟨S320000, .i1⟩ : BufTy).Contents (Elt F)),
    StableHlo.nullary main_c_10 (constantI S_ 32 10000#32),
    StableHlo.unary main_c_10 main_v49 (broadcastInDim S320000 ![] bcast_S_S320000 : (⟨S_, .i32⟩ : BufTy).Contents (Elt F) → (⟨S320000, .i32⟩ : BufTy).Contents (Elt F)),
    StableHlo.binary main_v7 main_v49 main_v50 (addi : (⟨S320000, .i32⟩ : BufTy).Contents (Elt F) → (⟨S320000, .i32⟩ : BufTy).Contents (Elt F) → (⟨S320000, .i32⟩ : BufTy).Contents (Elt F)),
    StableHlo.ternary main_v48 main_v50 main_v7 main_v51 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v46 main_v52 (broadcastInDim S320000x1 ![0] bcast_S320000_S320000x1_0 : (⟨S320000, .i32⟩ : BufTy).Contents (Elt F) → (⟨S320000x1, .i32⟩ : BufTy).Contents (Elt F)),
    StableHlo.unary main_v51 main_v53 (broadcastInDim S320000x1 ![0] bcast_S320000_S320000x1_0 : (⟨S320000, .i32⟩ : BufTy).Contents (Elt F) → (⟨S320000x1, .i32⟩ : BufTy).Contents (Elt F)),
    StableHlo.binary main_v52 main_v53 main_v54 ((fun a b => concatenate S320000x2 1 [⟨S320000x1, a⟩, ⟨S320000x1, b⟩] concatenates_S320000x1_S320000x1_S320000x2_d1) : (⟨S320000x1, .i32⟩ : BufTy).Contents (Elt F) → (⟨S320000x1, .i32⟩ : BufTy).Contents (Elt F) → (⟨S320000x2, .i32⟩ : BufTy).Contents (Elt F)),
    StableHlo.ternary main_v41 main_v54 main_v40 main_v55 ((fun x i u => Host.scatterAdd scatter_S10000x10000_S320000x2_S320000_n_01_01_1 x i u) : (⟨S10000x10000, .f32⟩ : BufTy).Contents (Elt F) → (⟨S320000x2, .i32⟩ : BufTy).Contents (Elt F) → (⟨S320000, .f32⟩ : BufTy).Contents (Elt F) → (⟨S10000x10000, .f32⟩ : BufTy).Contents (Elt F)),
    StableHlo.binary main_v55 main_v3 main_v56 ((fun l r => Host.dotGeneral dot_S10000x10000_S10000x256_S10000x256_1_0_0_1_n_n none l r) : (⟨S10000x10000, .f32⟩ : BufTy).Contents (Elt F) → (⟨S10000x256, .f32⟩ : BufTy).Contents (Elt F) → (⟨S10000x256, .f32⟩ : BufTy).Contents (Elt F)) ]

set_option maxRecDepth 4096 in
set_option maxHeartbeats 4000000 in
/-- The entry function is that straight line: its two windows and the two helpers unfolded at their call sites,
    sequencing reassociated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨binary_bufs_sub .., unary_bufs_sub .., unary_bufs_sub .., binary_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., unary_bufs_sub ..,
    binary_bufs_sub .., reshape_bufs_sub .., nullary_bufs_sub .., nullary_bufs_sub .., unary_bufs_sub .., binary_bufs_sub ..,
    unary_bufs_sub .., unary_bufs_sub .., binary_bufs_sub .., ternary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., ternary_bufs_sub .., binary_bufs_sub ..⟩

end Cert.ReferenceIdeal.RefValue

end
-- ==== Proof.RefRun.lean ====
import proofs.«150314_j48284022342211_1_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The buffers after the line -/

attribute [local irreducible] Host.gather Host.scatterAdd Host.exp Host.divf concatenate broadcastInDim
  extractStridedSlice in
set_option maxRecDepth 8192 in
set_option maxHeartbeats 4000000 in
/-- The result buffer after the line holds `refOut` of the argument buffers: each operation's result read at its
    own buffer, every other buffer passed over. -/
theorem out_eq (V : Valuation τ sig (Elt F)) :
    after ops V (main_v56 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-! ## The run -/

/-- On every device, for any float values, from any memory with zero counters: every weakly fair execution of the
    entry function terminates with the result buffer at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v56).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefValue

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«150314_j48284022342211_1_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.LibReshapeAt.lean ====
/-
  A row-major reshape read at coordinates. A reshape keeps an element's row-major position, so the entry `(p', q')` of
  the `P' × Q'` result is the operand's entry at the same position: the entry `(p, q)` of a `P × Q` operand when
  `p · Q + q = p' · Q' + q'`, the entry `(a, b, c)` of an `A × B × C` operand when `(a · B + b) · C + c = p' · Q' + q'`.
  The position equations are left to the caller: with literal extents they are linear arithmetic.
-/
import Idealize.ShloMosaic.Lib.Pipeline.Value
import Idealize.ShloMosaic.Lib.ValueIdx

noncomputable section

namespace Cert.LibReshapeAt

open Idealize.ShloMosaic Idealize.ShloMosaic.ValueIdx

/-- A rank-2 array reshaped to rank 2, at `(p', q')`. -/
theorem cast22 {α : Type} {P Q P' Q' : ℕ} (x : (⟨2, ![P, Q]⟩ : Shape).Idx → α)
    (h : (⟨2, ![P, Q]⟩ : Shape).ShapeCasts ⟨2, ![P', Q']⟩) (p' : Fin P') (q' : Fin Q') (p : Fin P) (q : Fin Q)
    (hk : p.val * Q + q.val = p'.val * Q' + q'.val) :
    shapeCast ⟨2, ![P', Q']⟩ x h (ix2 p' q') = x (ix2 p q) :=
  shapeCast_apply x h (ix2 p' q') (ix2 p q) (by rw [Shape.rowMajor_val_two, Shape.rowMajor_val_two]; exact hk)

/-- A rank-3 array reshaped to rank 2, at `(p', q')`. -/
theorem cast32 {α : Type} {A B C P' Q' : ℕ} (x : (⟨3, ![A, B, C]⟩ : Shape).Idx → α)
    (h : (⟨3, ![A, B, C]⟩ : Shape).ShapeCasts ⟨2, ![P', Q']⟩) (p' : Fin P') (q' : Fin Q') (a : Fin A) (b : Fin B) (c : Fin C)
    (hk : (a.val * B + b.val) * C + c.val = p'.val * Q' + q'.val) :
    shapeCast ⟨2, ![P', Q']⟩ x h (ix2 p' q') = x (ix3 a b c) :=
  shapeCast_apply x h (ix2 p' q') (ix3 a b c) (by rw [Shape.rowMajor_val_three, Shape.rowMajor_val_two]; exact hk)

/-- A vector reshaped to one row, at `(0, q)`. -/
theorem cast12 {α : Type} {N : ℕ} (x : (⟨1, ![N]⟩ : Shape).Idx → α)
    (h : (⟨1, ![N]⟩ : Shape).ShapeCasts ⟨2, ![1, N]⟩) (q : Fin N) :
    shapeCast ⟨2, ![1, N]⟩ x h (ix2 (0 : Fin 1) q) = x (ix1 q) :=
  shapeCast_apply x h (ix2 (0 : Fin 1) q) (ix1 q) (by
    rw [Shape.rowMajor_val_one, Shape.rowMajor_val_two]
    show q.val = 0 * N + q.val
    omega)

end Cert.LibReshapeAt

end
-- ==== Proof.FeatsBridge.lean ====
/-
  The projected node features: the reference's host product plus the bias vector broadcast down the rows is the dense layer
  with the bias first laid out as one row. Entry (p, q) of either is (∑ k, x (p, k) · w (k, q)) + b q.
-/
import proofs.«150314_j48284022342211_1_alg».proof.Proof.Gen.KernelIdeal
import proofs.«150314_j48284022342211_1_alg».proof.Proof.RefOps
import proofs.«150314_j48284022342211_1_alg».proof.Proof.LibBiasRow
import proofs.«150314_j48284022342211_1_alg».proof.Proof.LibPlainDot
import proofs.«150314_j48284022342211_1_alg».proof.Proof.LibReshapeAt
import Idealize.ShloMosaic.PureOps.Ideal.Laws
import Idealize.ShloMosaic.Lib.Pipeline.Value
import Idealize.ShloMosaic.Lib.ValueIdx

noncomputable section

open scoped BigOperators

namespace Cert.Bridge

open Idealize.ShloMosaic Idealize.ShloMosaic.ValueIdx

/-- The bias vector broadcast first to one row and then down the rows reads, at (p, q), the vector's entry q. -/
theorem bias_rows_apply (b : FVec Ideal Cert.ReferenceIdeal.S256 .f32) (p : Fin 10000) (q : Fin 256) :
    broadcastInDim Cert.ReferenceIdeal.S10000x256 ![0, 1] Cert.ReferenceIdeal.Facts₀.bcast_S1x256_S10000x256_0_1
        (broadcastInDim Cert.ReferenceIdeal.S1x256 ![1] Cert.ReferenceIdeal.Facts₀.bcast_S256_S1x256_1 b) (ix2 p q)
      = b (ix1 q) := by
  refine (broadcastInDim_apply _ _ _ (ix2 p q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The reference's projected features are the dense layer of the same arrays, the bias read through its one-row layout. -/
theorem feats_eq (x : FVec Ideal Cert.KernelIdeal.S10000x256 .f32) (w : FVec Ideal Cert.KernelIdeal.S256x256 .f32)
    (b : FVec Ideal Cert.KernelIdeal.S256 .f32) :
    Cert.ReferenceIdeal.RefValue.featsR (F := Ideal) x w b
      = Cert.DenseLayer.dense x w
          (Cert.LibBiasRow.rowBias (shapeCast Cert.KernelIdeal.S1x256 b Cert.KernelIdeal.Facts₀.shapeCasts_S256_S1x256)) := by
  funext i
  obtain ⟨p, q, rfl⟩ : ∃ (p : Fin 10000) (q : Fin 256), i = ix2 p q := ⟨i 0, i 1, eq_ix2 i⟩
  rw [Cert.DenseLayer.dense_ix2]
  unfold Cert.ReferenceIdeal.RefValue.featsR Cert.DenseLayer.denseAt Cert.LibBiasRow.rowBias
  rw [addf_apply, Cert.LibPlainDot.dot_plain_apply Cert.ReferenceIdeal.dot_S10000x256_S256x256_S10000x256_1_0_0_1_n_n rfl,
    bias_rows_apply, Cert.LibReshapeAt.cast12]

end Cert.Bridge

end
-- ==== Proof.Logit.lean ====
/-
  The per-edge attention logit as one expression of the node features.

  For node features `f : [10000, 256]`, attention weights `wa : [512, 1]` and a bias `ba : [1]`, the logit of an edge from
  node `rs` to node `rd` is

      (∑ k < 256, f (rs, k) · wa (k, 0))  +  (∑ k < 256, f (rd, k) · wa (256 + k, 0))  +  ba 0 .

  One program forms the two sums separately, per node, and adds them per edge; the other lays row `rs` and row `rd` side
  by side into a row of 512 entries and multiplies by all of `wa`. A sum over 512 indices is the sum over the first 256
  plus the sum over the last 256 (addition of extended reals is commutative and associative; nothing else is used), and
  the first 256 entries of the pair are row `rs`, the last 256 row `rd`.
-/
import Idealize.ShloMosaic.Lib.ValueIdx

noncomputable section

open scoped BigOperators

namespace Cert.Logit

open Idealize.ShloMosaic Idealize.ShloMosaic.ValueIdx

/-- Row `r` of the features against the first 256 attention weights. -/
def dotLo (f : (⟨2, ![10000, 256]⟩ : Shape).Idx → EReal) (wa : (⟨2, ![512, 1]⟩ : Shape).Idx → EReal) (r : Fin 10000) : EReal :=
  ∑ k : Fin 256, f (ix2 r k) * wa (ix2 (Fin.castAdd 256 k) (0 : Fin 1))

/-- Row `r` of the features against the last 256 attention weights. -/
def dotHi (f : (⟨2, ![10000, 256]⟩ : Shape).Idx → EReal) (wa : (⟨2, ![512, 1]⟩ : Shape).Idx → EReal) (r : Fin 10000) : EReal :=
  ∑ k : Fin 256, f (ix2 r k) * wa (ix2 (Fin.natAdd 256 k) (0 : Fin 1))

/-- The logit of an edge from node `rs` to node `rd`. -/
def logit (f : (⟨2, ![10000, 256]⟩ : Shape).Idx → EReal) (wa : (⟨2, ![512, 1]⟩ : Shape).Idx → EReal)
    (ba : (⟨1, ![1]⟩ : Shape).Idx → EReal) (rs rd : Fin 10000) : EReal :=
  dotLo f wa rs + dotHi f wa rd + ba (ix1 (0 : Fin 1))

/-- A row of 512 entries whose first half is row `rs` of `f` and whose second half is row `rd`, against all of `wa`:
    the two half sums. -/
theorem pair_dot (f : (⟨2, ![10000, 256]⟩ : Shape).Idx → EReal) (wa : (⟨2, ![512, 1]⟩ : Shape).Idx → EReal)
    (rs rd : Fin 10000) (P : Fin 512 → EReal)
    (hlo : ∀ k : Fin 256, P (Fin.castAdd 256 k) = f (ix2 rs k))
    (hhi : ∀ k : Fin 256, P (Fin.natAdd 256 k) = f (ix2 rd k)) :
    ∑ K : Fin 512, P K * wa (ix2 K (0 : Fin 1)) = dotLo f wa rs + dotHi f wa rd := by
  rw [Fin.sum_univ_add (a := 256) (b := 256) (fun K : Fin 512 => P K * wa (ix2 K (0 : Fin 1)))]
  unfold dotLo dotHi
  congr 1
  · exact Finset.sum_congr rfl fun k _ => by rw [hlo k]
  · exact Finset.sum_congr rfl fun k _ => by rw [hhi k]

end Cert.Logit

end
-- ==== Proof.LibGatherCell.lean ====
/-
  A cell gather `x[i, j]` of a table `x : [N, C]` on the host, read at an index.

  `x[i, j]` for two integer vectors `i`, `j` of length `R` lowers to a gather whose start indices are the `R × 2` array with
  `i` in column 0 and `j` in column 1, both table axes collapsed (one entry per start index, no offset axis). Result entry
  `r` is the table's entry at the row the first component names and the column the second names: each component is read as
  a signed integer and clamped into the axis, `[0, N − 1]` for the row and `[0, C − 1]` for the column, so every pair of
  integers names a cell. The statement takes the dimension numbers as a record built from the literal lists; a printed
  record with the same lists is equal to it by `rfl`.
-/
import Idealize.ShloMosaic.Lib.ValueIdx

noncomputable section

namespace Cert.LibGatherCell

open Idealize.ShloMosaic Idealize.ShloMosaic.ValueIdx

variable {α : Type}

/-- The position a start-index component names on an axis of extent `N`: its signed value clamped into `[0, N − 1]`. -/
def clampAxis {w : ℕ} (N : ℕ) (hN : 0 < N) (v : BitVec w) : Fin N := ⟨min v.toInt.toNat (N - 1), by omega⟩

/-- The dimension numbers of `x[i, j]` for a table `[N, C]` and start indices `[R, 2]`. -/
abbrev cellDims (N C R : ℕ)
    (wf : GatherDims.WF ⟨2, ![N, C]⟩ ⟨2, ![R, 2]⟩ ⟨1, ![R]⟩ [] [0, 1] [] [0, 1] [] 1 ![1, 1]) :
    GatherDims ⟨2, ![N, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

section Cell
variable {N C R w : ℕ}
  (wf : GatherDims.WF ⟨2, ![N, C]⟩ ⟨2, ![R, 2]⟩ ⟨1, ![R]⟩ [] [0, 1] [] [0, 1] [] 1 ![1, 1])
  (idx : IVec ⟨2, ![R, 2]⟩ w) (r : Fin R)

theorem zero_mem : (0 : Fin 2) ∈ ([0, 1] : List (Fin 2)) := List.mem_cons_self
theorem one_mem : (1 : Fin 2) ∈ ([0, 1] : List (Fin 2)) := List.mem_cons_of_mem _ List.mem_cons_self

/-- On the table's row axis the operand coordinate is the clamped first component: no batching, the axis collapsed. -/
theorem cell_axis0 :
    (cellDims N C R wf).start (ix1 r) idx 0 + (cellDims N C R wf).batchCoord (ix1 r) 0
      + (cellDims N C R wf).offCoord (ix1 r) 0 = min (idx (ix2 r (0 : Fin 2))).toInt.toNat (N - 1) := by
  rw [GatherDims.batchCoord_eq_zero _ _ _ List.not_mem_nil, Nat.add_zero,
    GatherDims.offCoord_eq_zero _ _ _ (fun h => ((GatherDims.mem_sKept _ _).mp h).1 zero_mem), Nat.add_zero]
  unfold GatherDims.start
  rw [dif_pos (show (0 : Fin 2) ∈ (cellDims N C R wf).startIndexMap from zero_mem)]
  have hsi : (cellDims N C R wf).siIdx (ix1 r) ⟨List.idxOf (0 : Fin 2) (cellDims N C R wf).startIndexMap,
      List.idxOf_lt_length_iff.2 zero_mem⟩ = ix2 r (0 : Fin 2) := by
    funext b; refine Fin.ext ?_
    match b with
    | ⟨0, _⟩ => rfl
    | ⟨1, _⟩ => rfl
  rw [hsi]
  rfl

/-- On the table's column axis it is the clamped second component. -/
theorem cell_axis1 :
    (cellDims N C R wf).start (ix1 r) idx 1 + (cellDims N C R wf).batchCoord (ix1 r) 1
      + (cellDims N C R wf).offCoord (ix1 r) 1 = min (idx (ix2 r (1 : Fin 2))).toInt.toNat (C - 1) := by
  rw [GatherDims.batchCoord_eq_zero _ _ _ List.not_mem_nil, Nat.add_zero,
    GatherDims.offCoord_eq_zero _ _ _ (fun h => ((GatherDims.mem_sKept _ _).mp h).1 one_mem), Nat.add_zero]
  unfold GatherDims.start
  rw [dif_pos (show (1 : Fin 2) ∈ (cellDims N C R wf).startIndexMap from one_mem)]
  have hsi : (cellDims N C R wf).siIdx (ix1 r) ⟨List.idxOf (1 : Fin 2) (cellDims N C R wf).startIndexMap,
      List.idxOf_lt_length_iff.2 one_mem⟩ = ix2 r (1 : Fin 2) := by
    funext b; refine Fin.ext ?_
    match b with
    | ⟨0, _⟩ => rfl
    | ⟨1, _⟩ => rfl
  rw [hsi]
  rfl

end Cell

/-- Entry `r` of the gather is the table's entry at the clamped pair of start-index components `idx (r, 0)`, `idx (r, 1)`. -/
theorem gather_cell_apply {N C R w : ℕ} (hN : 0 < N) (hC : 0 < C)
    (wf : GatherDims.WF ⟨2, ![N, C]⟩ ⟨2, ![R, 2]⟩ ⟨1, ![R]⟩ [] [0, 1] [] [0, 1] [] 1 ![1, 1])
    (x : (⟨2, ![N, C]⟩ : Shape).Idx → α) (idx : IVec ⟨2, ![R, 2]⟩ w) (r : Fin R) :
    Host.gather (cellDims N C R wf) x idx (ix1 r)
      = x (ix2 (clampAxis N hN (idx (ix2 r (0 : Fin 2)))) (clampAxis C hC (idx (ix2 r (1 : Fin 2))))) := by
  unfold Host.gather
  congr 1
  funext a
  refine Fin.ext ?_
  match a with
  | ⟨0, _⟩ => exact cell_axis0 wf idx r
  | ⟨1, _⟩ => exact cell_axis1 wf idx r

end Cert.LibGatherCell

end
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.LibSideBySide.lean ====
/-
  Two arrays laid side by side, read at an index, and a one-column matrix turned into a one-row matrix.

  A program that wants one matrix product to serve two layers keeps the two weight matrices side by side in one array
  (a concatenation along the columns) and the two bias vectors end to end in one vector. Read at an index, the pair is
  its left piece where the coordinate along the joined axis is below the left piece's extent `a`, and its right piece,
  at that coordinate less `a`, from `a` on. Stated for any two `r × a` matrices (columns `j` and `a + j` of the pair)
  and any two vectors of length `a` (positions `j` and `a + j`); the position in the pair is a parameter `J` with its
  value given, so that a caller's own injection into the pair's columns fits by `rfl`.
  A shape cast keeps row-major positions: entry `(q, 0)` of an `a × 1` column and entry `(0, q)` of the `1 × a` row it is
  cast to both sit at position `q`.
-/
import Idealize.ShloMosaic.Lib.Pipeline.Value
import Idealize.ShloMosaic.Lib.ValueIdx
import Idealize.ShloMosaic.Lib.ValueLayout

namespace Cert.LibSideBySide

open Idealize.ShloMosaic Idealize.ShloMosaic.ValueIdx

variable {α : Type}

/-! ## Two pieces side by side -/

/-- Column `j` of the left of two `r × a` matrices laid side by side. -/
theorem pair_cols_left {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = j.val) :
    concatenate ⟨2, ![r, t]⟩ 1 [⟨⟨2, ![r, a]⟩, x₁⟩, ⟨⟨2, ![r, a]⟩, x₂⟩] h (ix2 k J) = x₁ (ix2 k j) :=
  concatenate_pair_apply_left 1 x₁ x₂ h (ix2 k J) rfl (ix2 k j) (fun b => by
    match b with
    | ⟨0, _⟩ => rfl
    | ⟨1, _⟩ => exact hJ.symm)

/-- Column `j` of the right of two `r × a` matrices laid side by side sits at column `a + j` of the pair. -/
theorem pair_cols_right {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = a + j.val) :
    concatenate ⟨2, ![r, t]⟩ 1 [⟨⟨2, ![r, a]⟩, x₁⟩, ⟨⟨2, ![r, a]⟩, x₂⟩] h (ix2 k J) = x₂ (ix2 k j) :=
  concatenate_pair_apply_right 1 x₁ x₂ h (ix2 k J) rfl rfl (ix2 k j) (fun b hb => by
    match b with
    | ⟨0, _⟩ => rfl
    | ⟨1, _⟩ => exact absurd rfl hb) (by
    show j.val + a = J.val
    omega)

/-- Entry `j` of the first of two vectors of length `a` laid end to end. -/
theorem pair_vec_left {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = j.val) :
    concatenate ⟨1, ![t]⟩ 0 [⟨⟨1, ![a]⟩, x₁⟩, ⟨⟨1, ![a]⟩, x₂⟩] h (ix1 J) = x₁ (ix1 j) :=
  concatenate_pair_apply_left 0 x₁ x₂ h (ix1 J) rfl (ix1 j) (fun b => by
    match b with
    | ⟨0, _⟩ => exact hJ.symm)

/-- Entry `j` of the second of two vectors of length `a` laid end to end sits at position `a + j`. -/
theorem pair_vec_right {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = a + j.val) :
    concatenate ⟨1, ![t]⟩ 0 [⟨⟨1, ![a]⟩, x₁⟩, ⟨⟨1, ![a]⟩, x₂⟩] h (ix1 J) = x₂ (ix1 j) :=
  concatenate_pair_apply_right 0 x₁ x₂ h (ix1 J) rfl rfl (ix1 j) (fun b hb => by
    match b with
    | ⟨0, _⟩ => exact absurd rfl hb) (by
    show j.val + a = J.val
    omega)

/-- A one-column matrix cast to a one-row matrix: entry `(0, q)` of the row is entry `(q, 0)` of the column. -/
theorem shapeCast_a1_1a_apply {a : ℕ} (x : (⟨2, ![a, 1]⟩ : Shape).Idx → α)
    (h : (⟨2, ![a, 1]⟩ : Shape).ShapeCasts ⟨2, ![1, a]⟩) (q : Fin a) :
    shapeCast ⟨2, ![1, a]⟩ x h (ix2 (0 : Fin 1) q) = x (ix2 q (0 : Fin 1)) :=
  shapeCast_apply x h _ _ (by
    rw [Shape.rowMajor_val_two, Shape.rowMajor_val_two]
    show q.val * 1 + 0 = 0 * a + q.val
    omega)

end Cert.LibSideBySide
-- ==== Proof.LibColumnFlat.lean ====
/-
  A column flattened to a vector, read at an index.

  An `a × 1` column re-laid as a vector of length `a` holds, at entry `i`, the column's entry at row `i`:
  both positions are number `i` in row-major order.
-/
import Idealize.ShloMosaic.Lib.Pipeline.Value
import Idealize.ShloMosaic.Lib.ValueIdx

namespace Cert.LibColumnFlat

open Idealize.ShloMosaic Idealize.ShloMosaic.ValueIdx

variable {α : Type}

/-- An `a × 1` column cast to a length-`a` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnFlat
-- ==== Proof.ScoresBridge.lean ====
/-
  The per-edge attention logits are the same numbers in the two programs.

  One program forms, per node, the node's features against the first 256 attention weights and against the last 256, reads
  the first number at each edge's source node and the second at its destination node, and adds them and the bias. The other
  lays the source node's and the destination node's feature rows side by side into a row of 512 entries per edge and
  multiplies by all 512 weights, then adds the bias. A sum over 512 indices is the sum over the first 256 plus the sum over
  the last 256, so each is the logit of the edge's two node rows.
-/
import proofs.«150314_j48284022342211_1_alg».proof.Proof.KernelStages
import proofs.«150314_j48284022342211_1_alg».proof.Proof.RefOps
import proofs.«150314_j48284022342211_1_alg».proof.Proof.Logit
import proofs.«150314_j48284022342211_1_alg».proof.Proof.LibGatherCell
import proofs.«150314_j48284022342211_1_alg».proof.Proof.LibGatherRows
import proofs.«150314_j48284022342211_1_alg».proof.Proof.LibSideBySide
import proofs.«150314_j48284022342211_1_alg».proof.Proof.LibPlainDot
import proofs.«150314_j48284022342211_1_alg».proof.Proof.LibColumnFlat
import Idealize.ShloMosaic.PureOps.Ideal.Laws
import Idealize.ShloMosaic.Lib.Pipeline.Value
import Idealize.ShloMosaic.Lib.ValueIdx

noncomputable section

open scoped BigOperators

namespace Cert.Bridge

open Idealize.ShloMosaic Idealize.ShloMosaic.ValueIdx

/-- The node a start-index component names among the 10000 nodes. -/
abbrev nodeOf (v : BitVec 32) : Fin 10000 := Cert.LibGatherCell.clampAxis 10000 (by decide) v

/-! ## The kernel program's side -/

/-- Row k of the first half of the attention weights. -/
theorem wa_lo_apply (wa : FVec Ideal Cert.KernelIdeal.S512x1 .f32) (k : Fin 256) :
    extractStridedSlice Cert.KernelIdeal.S256x1 ![0, 0] wa Cert.KernelIdeal.Facts₀.slices_S512x1_S256x1_0_0 (ix2 k (0 : Fin 1))
      = wa (ix2 (Fin.castAdd 256 k) (0 : Fin 1)) :=
  extractStridedSlice_apply _ wa _ (ix2 k (0 : Fin 1)) (ix2 (Fin.castAdd 256 k) (0 : Fin 1)) fun a => by
    match a with
    | ⟨0, _⟩ => exact (Nat.zero_add _).symm
    | ⟨1, _⟩ => rfl

/-- Row k of the second half. -/
theorem wa_hi_apply (wa : FVec Ideal Cert.KernelIdeal.S512x1 .f32) (k : Fin 256) :
    extractStridedSlice Cert.KernelIdeal.S256x1 ![256, 0] wa Cert.KernelIdeal.Facts₀.slices_S512x1_S256x1_256_0 (ix2 k (0 : Fin 1))
      = wa (ix2 (Fin.natAdd 256 k) (0 : Fin 1)) :=
  extractStridedSlice_apply _ wa _ (ix2 k (0 : Fin 1)) (ix2 (Fin.natAdd 256 k) (0 : Fin 1)) fun a => by
    match a with
    | ⟨0, _⟩ => rfl
    | ⟨1, _⟩ => rfl

/-- The start indices of the one-column gathers hold, in column 0 of row i, the wrapped node number of edge i. -/
theorem cellIdx_apply (col : IVec Cert.KernelIdeal.S320000 32) (i : Fin 320000) :
    Cert.KernelIdeal.HostValue.cellIdx (F := Ideal) col (ix2 i (0 : Fin 2))
      = Cert.KernelIdeal.HostValue.wrapIdx (F := Ideal) col (ix1 i) := by
  unfold Cert.KernelIdeal.HostValue.cellIdx
  refine (Cert.LibSideBySide.pair_cols_left _ _ _ i (0 : Fin 1) (0 : Fin 2) rfl).trans ?_
  refine broadcastInDim_apply _ _ _ (ix2 i (0 : Fin 1)) (ix1 i) fun a => ?_
  match a with
  | ⟨0, _⟩ => rfl

/-- A node's features against the first 256 attention weights, as the kernel program's one-column host product holds it. -/
theorem node_lo_apply (f : FVec Ideal Cert.KernelIdeal.S10000x256 .f32) (wa : FVec Ideal Cert.KernelIdeal.S512x1 .f32)
    (r : Fin 10000) (c : Fin 1) :
    Host.dotGeneral Cert.KernelIdeal.dot_S10000x256_S256x1_S10000x1_1_0_0_1_n_n none f
        (extractStridedSlice Cert.KernelIdeal.S256x1 ![0, 0] wa Cert.KernelIdeal.Facts₀.slices_S512x1_S256x1_0_0) (ix2 r c)
      = Cert.Logit.dotLo f wa r := by
  obtain rfl : c = 0 := Subsingleton.elim _ _
  rw [Cert.LibPlainDot.dot_plain_apply Cert.KernelIdeal.dot_S10000x256_S256x1_S10000x1_1_0_0_1_n_n rfl]
  unfold Cert.Logit.dotLo
  exact Finset.sum_congr rfl fun k _ => by rw [wa_lo_apply]

/-- A node's features against the last 256 attention weights, likewise. -/
theorem node_hi_apply (f : FVec Ideal Cert.KernelIdeal.S10000x256 .f32) (wa : FVec Ideal Cert.KernelIdeal.S512x1 .f32)
    (r : Fin 10000) (c : Fin 1) :
    Host.dotGeneral Cert.KernelIdeal.dot_S10000x256_S256x1_S10000x1_1_0_0_1_n_n none f
        (extractStridedSlice Cert.KernelIdeal.S256x1 ![256, 0] wa Cert.KernelIdeal.Facts₀.slices_S512x1_S256x1_256_0) (ix2 r c)
      = Cert.Logit.dotHi f wa r := by
  obtain rfl : c = 0 := Subsingleton.elim _ _
  rw [Cert.LibPlainDot.dot_plain_apply Cert.KernelIdeal.dot_S10000x256_S256x1_S10000x1_1_0_0_1_n_n rfl]
  unfold Cert.Logit.dotHi
  exact Finset.sum_congr rfl fun k _ => by rw [wa_hi_apply]

/-- A one-column table gathered at the wrapped node numbers of a column of the edge list: entry i is the table's entry at
    the node of edge i. -/
theorem gather_node_apply (x : FVec Ideal Cert.KernelIdeal.S10000x1 .f32) (col : IVec Cert.KernelIdeal.S320000 32)
    (i : Fin 320000) :
    Host.gather Cert.KernelIdeal.gather_S10000x1_S320000x2_S320000_n_01_n_n_01_1_11 x
        (Cert.KernelIdeal.HostValue.cellIdx (F := Ideal) col) (ix1 i)
      = x (ix2 (nodeOf (Cert.KernelIdeal.HostValue.wrapIdx (F := Ideal) col (ix1 i)))
          (Cert.LibGatherCell.clampAxis 1 (by decide)
            (Cert.KernelIdeal.HostValue.cellIdx (F := Ideal) col (ix2 i (1 : Fin 2))))) := by
  refine (Cert.LibGatherCell.gather_cell_apply (N := 10000) (C := 1) (R := 320000) (by decide) (by decide)
    Cert.KernelIdeal.Facts₀.gather_S10000x1_S320000x2_S320000_n_01_n_n_01_1_11_wf x _ i).trans ?_
  rw [cellIdx_apply]

/-- The bias as the kernel program adds it: the one-entry vector cast to a scalar and broadcast over the edges. -/
theorem bias_edges_apply (ba : FVec Ideal Cert.KernelIdeal.S1 .f32) (i : Fin 320000) :
    broadcastInDim Cert.KernelIdeal.S320000 ![] Cert.KernelIdeal.Facts₀.bcast_S_S320000
        (shapeCast Cert.KernelIdeal.S_ ba Cert.KernelIdeal.Facts₀.shapeCasts_S1_S_) (ix1 i)
      = ba (ix1 (0 : Fin 1)) := by
  refine (broadcastInDim_apply _ _ _ (ix1 i) ix0 fun a => a.elim0).trans ?_
  refine shapeCast_apply ba _ ix0 (ix1 (0 : Fin 1)) ?_
  rw [Shape.rowMajor_val_one]
  exact (Shape.rowMajorPi_zero _ _).symm

/-- The kernel program's logit of edge i. -/
theorem kernel_scores_apply (f : FVec Ideal Cert.KernelIdeal.S10000x256 .f32) (e : IVec Cert.KernelIdeal.S320000x2 32)
    (wa : FVec Ideal Cert.KernelIdeal.S512x1 .f32) (ba : FVec Ideal Cert.KernelIdeal.S1 .f32) (i : Fin 320000) :
    Cert.KernelIdeal.HostValue.scores (F := Ideal) f e wa ba (ix1 i)
      = Cert.Logit.logit f wa ba
          (nodeOf (Cert.KernelIdeal.HostValue.wrapIdx (F := Ideal) (Cert.KernelIdeal.HostValue.srcCol (F := Ideal) e) (ix1 i)))
          (nodeOf (Cert.KernelIdeal.HostValue.wrapIdx (F := Ideal) (Cert.KernelIdeal.HostValue.dstCol (F := Ideal) e) (ix1 i))) := by
  unfold Cert.KernelIdeal.HostValue.scores Cert.Logit.logit
  rw [addf_apply, addf_apply, gather_node_apply, gather_node_apply, node_lo_apply, node_hi_apply, bias_edges_apply]

/-! ## The reference's side -/

/-- The reference's gather of whole feature rows at the wrapped node numbers of a column of the edge list: row i is the
    feature row of the node of edge i. -/
theorem gather_row_apply (f : FVec Ideal Cert.ReferenceIdeal.S10000x256 .f32) (col : IVec Cert.ReferenceIdeal.S320000 32)
    (i : Fin 320000) (k : Fin 256) :
    Host.gather Cert.ReferenceIdeal.gather_S10000x256_S320000x1_S320000x256_1_0_n_n_0_1_1256 f
        (broadcastInDim Cert.ReferenceIdeal.S320000x1 ![0] Cert.ReferenceIdeal.Facts₀.bcast_S320000_S320000x1_0
          (Cert.ReferenceIdeal.RefValue.wrapIdx col)) (ix2 i k)
      = f (ix2 (nodeOf (Cert.ReferenceIdeal.RefValue.wrapIdx col (ix1 i))) k) := by
  refine (Cert.LibGatherRows.gather_rows2_apply (N := 10000) (D := 256) (R := 320000) (by decide)
    Cert.ReferenceIdeal.Facts₀.gather_S10000x256_S320000x1_S320000x256_1_0_n_n_0_1_1256_wf f _ i k).trans ?_
  rw [broadcastInDim_apply _ _ _ (ix2 i (0 : Fin 1)) (ix1 i) (fun a => by match a with | ⟨0, _⟩ => rfl)]
  rfl

/-- The bias as the reference adds it: the one-entry vector broadcast to one cell and then down the edges. -/
theorem bias_column_apply (ba : FVec Ideal Cert.ReferenceIdeal.S1 .f32) (i : Fin 320000) :
    broadcastInDim Cert.ReferenceIdeal.S320000x1 ![0, 1] Cert.ReferenceIdeal.Facts₀.bcast_S1x1_S320000x1_0_1
        (broadcastInDim Cert.ReferenceIdeal.S1x1 ![1] Cert.ReferenceIdeal.Facts₀.bcast_S1_S1x1_1 ba) (ix2 i (0 : Fin 1))
      = ba (ix1 (0 : Fin 1)) := by
  refine (broadcastInDim_apply _ _ _ (ix2 i (0 : Fin 1)) (ix2 (0 : Fin 1) (0 : Fin 1)) fun a => ?_).trans ?_
  · match a with
    | ⟨0, _⟩ => rfl
    | ⟨1, _⟩ => rfl
  · refine broadcastInDim_apply _ _ _ (ix2 (0 : Fin 1) (0 : Fin 1)) (ix1 (0 : Fin 1)) fun a => ?_
    match a with
    | ⟨0, _⟩ => rfl

/-- The reference's logit of edge i. -/
theorem ref_scores_apply (f : FVec Ideal Cert.ReferenceIdeal.S10000x256 .f32) (e : IVec Cert.ReferenceIdeal.S320000x2 32)
    (wa : FVec Ideal Cert.ReferenceIdeal.S512x1 .f32) (ba : FVec Ideal Cert.ReferenceIdeal.S1 .f32) (i : Fin 320000) :
    Cert.ReferenceIdeal.RefValue.scoresR (F := Ideal) f e wa ba (ix1 i)
      = Cert.Logit.logit f wa ba
          (nodeOf (Cert.ReferenceIdeal.RefValue.wrapIdx (Cert.ReferenceIdeal.RefValue.srcCol e) (ix1 i)))
          (nodeOf (Cert.ReferenceIdeal.RefValue.wrapIdx (Cert.ReferenceIdeal.RefValue.dstCol e) (ix1 i))) := by
  unfold Cert.ReferenceIdeal.RefValue.scoresR Cert.Logit.logit
  rw [Cert.LibColumnFlat.shapeCast_a1_a_apply, addf_apply,
    Cert.LibPlainDot.dot_plain_apply Cert.ReferenceIdeal.dot_S320000x512_S512x1_S320000x1_1_0_0_1_n_n rfl, bias_column_apply]
  congr 1
  refine Cert.Logit.pair_dot f wa _ _ _ (fun k => ?_) (fun k => ?_)
  · exact (Cert.LibSideBySide.pair_cols_left _ _ _ i k (Fin.castAdd 256 k) rfl).trans (gather_row_apply f _ i k)
  · exact (Cert.LibSideBySide.pair_cols_right _ _ _ i k (Fin.natAdd 256 k) rfl).trans (gather_row_apply f _ i k)

/-! ## The two sides together -/

/-- The per-edge logits of the kernel program's host stages are the reference's. -/
theorem scores_eq (f : FVec Ideal Cert.KernelIdeal.S10000x256 .f32) (e : IVec Cert.KernelIdeal.S320000x2 32)
    (wa : FVec Ideal Cert.KernelIdeal.S512x1 .f32) (ba : FVec Ideal Cert.KernelIdeal.S1 .f32) :
    Cert.KernelIdeal.HostValue.scores (F := Ideal) f e wa ba = Cert.ReferenceIdeal.RefValue.scoresR (F := Ideal) f e wa ba := by
  funext j
  obtain ⟨i, rfl⟩ : ∃ i : Fin 320000, j = ix1 i := ⟨j 0, eq_ix1 j⟩
  exact (kernel_scores_apply f e wa ba i).trans (ref_scores_apply f e wa ba i).symm

end Cert.Bridge

end
-- ==== Proof.AttnBridge.lean ====
/-
  The dense attention matrix is one and the same function of the edge logits and the edge list in the two programs.

  Both programs write the same operations in the same order: the leaky rectifier and the exponential of the logits, the sums
  of the exponentials per source node scattered into a vector and gathered back, the quotient, and the quotients added into a
  zero matrix at (source, destination). Only the names under which each program records its shapes and dimension numbers
  differ, and those records have the same contents.
-/
import proofs.«150314_j48284022342211_1_alg».proof.Proof.KernelStages
import proofs.«150314_j48284022342211_1_alg».proof.Proof.RefOps
import Idealize.ShloMosaic.PureOps.Ideal.Laws

noncomputable section

namespace Cert.Bridge

open Idealize.ShloMosaic

/-- The source column of the edge list is the same function in the two programs. -/
theorem srcCol_eq (e : IVec Cert.KernelIdeal.S320000x2 32) :
    Cert.KernelIdeal.HostValue.srcCol (F := Ideal) e = Cert.ReferenceIdeal.RefValue.srcCol e := rfl

/-- The destination column likewise. -/
theorem dstCol_eq (e : IVec Cert.KernelIdeal.S320000x2 32) :
    Cert.KernelIdeal.HostValue.dstCol (F := Ideal) e = Cert.ReferenceIdeal.RefValue.dstCol e := rfl

/-- Counting a negative node number from the end is the same function in the two programs. -/
theorem wrapIdx_eq (col : IVec Cert.KernelIdeal.S320000 32) :
    Cert.KernelIdeal.HostValue.wrapIdx (F := Ideal) col = Cert.ReferenceIdeal.RefValue.wrapIdx col := rfl

/-- The attention matrix as the kernel program's host stages compute it is the reference's. -/
theorem attn_eq (s : FVec Ideal Cert.KernelIdeal.S320000 .f32) (e : IVec Cert.KernelIdeal.S320000x2 32) :
    Cert.KernelIdeal.HostValue.attn (F := Ideal) s e = Cert.ReferenceIdeal.RefValue.attnR (F := Ideal) s e := by
  unfold Cert.KernelIdeal.HostValue.attn Cert.KernelIdeal.HostValue.weights Cert.KernelIdeal.HostValue.expScores
    Cert.ReferenceIdeal.RefValue.attnR
  rw [srcCol_eq, dstCol_eq, wrapIdx_eq, wrapIdx_eq]
  rfl

end Cert.Bridge

end
-- ==== Proof.LastBridge.lean ====
/-
  The aggregation: the product of the attention matrix with the node features, once with both factors first rounded to a
  narrower format and multiplied row block by row block, once as one host product of the unrounded factors. On the extended
  reals rounding changes nothing, and both are the array whose entry (p, q) is the sum over k of A (p, k) · f (k, q).
-/
import proofs.«150314_j48284022342211_1_alg».proof.Proof.Gen.KernelIdeal
import proofs.«150314_j48284022342211_1_alg».proof.Proof.Gen.ReferenceIdeal
import proofs.«150314_j48284022342211_1_alg».proof.Proof.MatProd
import proofs.«150314_j48284022342211_1_alg».proof.Proof.LibPlainDot
import Idealize.ShloMosaic.PureOps.Ideal.Laws
import Idealize.ShloMosaic.Lib.ValueIdx

noncomputable section

open scoped BigOperators

namespace Cert.Bridge

open Idealize.ShloMosaic Idealize.ShloMosaic.ValueIdx

/-- The product of the rounded factors is the host product of the factors. -/
theorem last_eq (A : FVec Ideal Cert.KernelIdeal.S10000x10000 .f32) (f : FVec Ideal Cert.KernelIdeal.S10000x256 .f32) :
    Cert.MatProd.matProd
        (truncf .bf16 A Cert.KernelIdeal.Facts₀.bitsLt_bf16_f32 : FVec Ideal Cert.KernelIdeal.S10000x10000 .bf16)
        (truncf .bf16 f Cert.KernelIdeal.Facts₀.bitsLt_bf16_f32 : FVec Ideal Cert.KernelIdeal.S10000x256 .bf16)
      = Host.dotGeneral Cert.ReferenceIdeal.dot_S10000x10000_S10000x256_S10000x256_1_0_0_1_n_n none A f := by
  funext i
  obtain ⟨p, q, rfl⟩ : ∃ (p : Fin 10000) (q : Fin 256), i = ix2 p q := ⟨i 0, i 1, eq_ix2 i⟩
  rw [Cert.MatProd.matProd_ix2]
  refine Eq.trans ?_ (Cert.LibPlainDot.dot_plain_apply
    Cert.ReferenceIdeal.dot_S10000x10000_S10000x256_S10000x256_1_0_0_1_n_n rfl none A f p q).symm
  rfl

end Cert.Bridge

end
-- ==== Proof.lean ====
/-
  A graph-attention layer, computed two ways, gives the same result on the extended reals.

  Both programs take node features `x : [10000, 256]`, an edge list `e : [320000, 2]` of (source, destination) node numbers,
  a dense layer `w, b` and attention parameters `wa : [512, 1]`, `ba : [1]`. With `f = x · w + b` the projected features,
  the logit of an edge is `f[src] · wa[0:256] + f[dst] · wa[256:512] + ba`; the attention weight of an edge is the exponential
  of the leaky rectifier of its logit over the sum of those exponentials over the edges of its source node; the weights are
  added into a dense `10000 × 10000` matrix `A` at (source, destination); the result is `A · f`.

  The reference lays rows `f[src]` and `f[dst]` side by side and takes one dot product of length 512 per edge. The kernel
  program computes `f` in a first kernel region (blocks of 1000 rows), forms the two per-node half dot products once per
  node and gathers them per edge, and computes `A · f` in a second kernel region (blocks of 400 rows of `A`), having
  passed `A` and `f` through a change of float format, which is the identity on the extended reals.

  The two results agree because (1) a block of rows of a matrix product is the product of that block of rows, so each
  region's blocks assemble to the whole product; (2) a sum over 512 indices is the sum over the first 256 plus the sum
  over the last 256, so the edge logits agree; (3) from the logits on, both programs apply the same operations to the same
  values. Only commutativity and associativity of addition on the extended reals are used; the finiteness of the inputs is
  not needed.
-/
import proofs.«150314_j48284022342211_1_alg».proof.Defs
import proofs.«150314_j48284022342211_1_alg».proof.Proof.Gen.Kernel
import proofs.«150314_j48284022342211_1_alg».proof.Proof.Gen.Kernel.Frame
import proofs.«150314_j48284022342211_1_alg».proof.Proof.Gen.KernelIdeal
import proofs.«150314_j48284022342211_1_alg».proof.Proof.Gen.KernelIdeal.Frame
import proofs.«150314_j48284022342211_1_alg».proof.Proof.Gen.ReferenceIdeal
import proofs.«150314_j48284022342211_1_alg».proof.Proof.Gen.Pre_finite_inputs
import proofs.«150314_j48284022342211_1_alg».proof.Proof.KernelValue
import proofs.«150314_j48284022342211_1_alg».proof.Proof.RefRun
import proofs.«150314_j48284022342211_1_alg».proof.Proof.FeatsBridge
import proofs.«150314_j48284022342211_1_alg».proof.Proof.ScoresBridge
import proofs.«150314_j48284022342211_1_alg».proof.Proof.AttnBridge
import proofs.«150314_j48284022342211_1_alg».proof.Proof.LastBridge

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote nothing. -/
theorem preserves : Cert.preserves_Kernel_KernelIdeal := trivial

/-- The two programs' results are one function of the arguments. -/
theorem out_eq (x : FVec Ideal Cert.KernelIdeal.S10000x256 .f32) (e : IVec Cert.KernelIdeal.S320000x2 32)
    (w : FVec Ideal Cert.KernelIdeal.S256x256 .f32) (b : FVec Ideal Cert.KernelIdeal.S256 .f32)
    (wa : FVec Ideal Cert.KernelIdeal.S512x1 .f32) (ba : FVec Ideal Cert.KernelIdeal.S1 .f32) :
    Cert.KernelIdeal.Named.kernelOut x e w b wa ba = Cert.ReferenceIdeal.RefValue.refOut (F := Ideal) x e w b wa ba := by
  have hf : Cert.KernelIdeal.Named.featsK x w b = Cert.ReferenceIdeal.RefValue.featsR (F := Ideal) x w b :=
    (Cert.Bridge.feats_eq x w b).symm
  unfold Cert.KernelIdeal.Named.kernelOut Cert.ReferenceIdeal.RefValue.refOut
  rw [hf, Cert.Bridge.last_eq, Cert.Bridge.attn_eq, Cert.Bridge.scores_eq]

/-- From memories that agree on the arguments both idealized programs run, end with equal results, and leave their
    arguments unchanged. -/
theorem algebraic : Cert.algebraic_KernelIdeal_ReferenceIdeal := by
  intro m ρ m' ρ' _ hagree
  refine ⟨_, Cert.KernelIdeal.Named.run_value m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]
  exact (out_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
